-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v109)) (v1 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_v125) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x256 : Shape := ⟨2, ![64, 256]⟩
abbrev S256 : Shape := ⟨1, ![256]⟩
abbrev S256x256 : Shape := ⟨2, ![256, 256]⟩
abbrev S3x256x256 : Shape := ⟨3, ![3, 256, 256]⟩
abbrev S3x256 : Shape := ⟨2, ![3, 256]⟩
abbrev S512x256 : Shape := ⟨2, ![512, 256]⟩
abbrev S256x128 : Shape := ⟨2, ![256, 128]⟩
abbrev S128 : Shape := ⟨1, ![128]⟩
abbrev S128x256 : Shape := ⟨2, ![128, 256]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part4 {F : FTy → Type} [FloatOps F] (main_arg15 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  main_v73

def fn_part3 {F : FTy → Type} [FloatOps F] (main_arg12 : FVec F S128x256 .f32) (main_arg13 : FVec F S256 .f32) (main_arg14 : FVec F S256x256 .f32) (main_arg15 : FVec F S256 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x256 .f32 := Host.absf main_arg12
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg14
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg15 main_v63 main_v67

def fn_part2 {F : FTy → Type} [FloatOps F] (main_arg8 : FVec F S512x256 .f32) (main_arg9 : FVec F S256 .f32) (main_arg10 : FVec F S256x128 .f32) (main_arg11 : FVec F S128 .f32) (main_arg12 : FVec F S128x256 .f32) (main_arg13 : FVec F S256 .f32) (main_arg14 : FVec F S256x256 .f32) (main_arg15 : FVec F S256 .f32) (main_v33 : IVec S_ 1) : IVec S_ 1 :=
  let main_v34 : FVec F S512x256 .f32 := Host.absf main_arg8
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S256 .f32) (main_arg6 : FVec F S3x256x256 .f32) (main_arg7 : FVec F S3x256 .f32) (main_arg8 : FVec F S512x256 .f32) (main_arg9 : FVec F S256 .f32) (main_arg10 : FVec F S256x128 .f32) (main_arg11 : FVec F S128 .f32) (main_arg12 : FVec F S128x256 .f32) (main_arg13 : FVec F S256 .f32) (main_arg14 : FVec F S256x256 .f32) (main_arg15 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S3x256x256 .f32 := Host.absf main_arg6
  let main_cst_8 : FVec F S_ .f32 := constant S_ .f32 0x7F800000#32
  let main_v25 : FVec F S3x256x256 .f32 := broadcastInDim S3x256x256 ![] bcast_S_S3x256x256 main_cst_8
  let main_v26 : IVec S3x256x256 1 := cmpf .olt main_v24 main_v25
  let main_c_9 : IVec S_ 1 := constantI S_ 1 1#1
  let main_v27 : IVec S_ 1 := (fun x v => Host.reduce IntOp.andi x v reducesTo_S3x256x256_S_d0_1_2 h_S_) main_v26 main_c_9
  let main_v28 : IVec S_ 1 := andi main_v23 main_v27
  let main_v29 : FVec F S3x256 .f32 := Host.absf main_arg7
  let main_cst_10 : FVec F S_ .f32 := constant S_ .f32 0x7F800000#32
  let main_v30 : FVec F S3x256 .f32 := broadcastInDim S3x256 ![] bcast_S_S3x256 main_cst_10
  let main_v31 : IVec S3x256 1 := cmpf .olt main_v29 main_v30
  let main_c_11 : IVec S_ 1 := constantI S_ 1 1#1
  let main_v32 : IVec S_ 1 := (fun x v => Host.reduce IntOp.andi x v reducesTo_S3x256_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x64 .f32) (main_arg1 : IVec S2x800000 32) (main_arg2 : FVec F S64x256 .f32) (main_arg3 : FVec F S256 .f32) (main_arg4 : FVec F S256x256 .f32) (main_arg5 : FVec F S256 .f32) (main_arg6 : FVec F S3x256x256 .f32) (main_arg7 : FVec F S3x256 .f32) (main_arg8 : FVec F S512x256 .f32) (main_arg9 : FVec F S256 .f32) (main_arg10 : FVec F S256x128 .f32) (main_arg11 : FVec F S128 .f32) (main_arg12 : FVec F S128x256 .f32) (main_arg13 : FVec F S256 .f32) (main_arg14 : FVec F S256x256 .f32) (main_arg15 : FVec F S256 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x64 : Shape := ⟨2, ![50000, 64]⟩
abbrev S2x800000 : Shape := ⟨2, ![2, 800000]⟩
abbrev S64x256 : Shape := ⟨2, ![64, 256]⟩
abbrev S256 : Shape := ⟨1, ![256]⟩
abbrev S256x256 : Shape := ⟨2, ![256, 256]⟩
abbrev S3x256x256 : Shape := ⟨3, ![3, 256, 256]⟩
abbrev S3x256 : Shape := ⟨2, ![3, 256]⟩
abbrev S512x256 : Shape := ⟨2, ![512, 256]⟩
abbrev S256x128 : Shape := ⟨2, ![256, 128]⟩
abbrev S128 : Shape := ⟨1, ![128]⟩
abbrev S128x256 : Shape := ⟨2, ![128, 256]⟩
abbrev S1x256 : Shape := ⟨2, ![1, 256]⟩
abbrev S50000x256 : Shape := ⟨2, ![50000, 256]⟩
abbrev S5000x64 : Shape := ⟨2, ![5000, 64]⟩
abbrev S5000x256 : Shape := ⟨2, ![5000, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x256x256 : Shape := ⟨3, ![1, 256, 256]⟩
abbrev S850000x256 : Shape := ⟨2, ![850000, 256]⟩
abbrev S512 : Shape := ⟨1, ![512]⟩
abbrev S1x512 : Shape := ⟨2, ![1, 512]⟩
abbrev S1x128 : Shape := ⟨2, ![1, 128]⟩

abbrev nBuf : Space → Nat
  | .hbm => 177
  | .vmem => 23
  | .smem => 0
  | _ => 0

abbrev hbmTy0_0 (i : Nat) : BufTy := match i % 128 with
  | 0 => ⟨S50000x64, .f32⟩
  | 1 => ⟨S2x800000, .i32⟩
  | 2 => ⟨S64x256, .f32⟩
  | 3 => ⟨S256, .f32⟩
  | 4 => ⟨S256x256, .f32⟩
  | 5 => ⟨S256, .f32⟩
  | 6 => ⟨S3x256x256, .f32⟩
  | 7 => ⟨S3x256, .f32⟩
  | 8 => ⟨S512x256, .f32⟩
  | 9 => ⟨S256, .f32⟩
  | 10 => ⟨S256x128, .f32⟩
  | 11 => ⟨S128, .f32⟩
  | 12 => ⟨S128x256, .f32⟩
  | 13 => ⟨S256, .f32⟩
  | 14 => ⟨S256x256, .f32⟩
  | 15 => ⟨S256, .f32⟩
  | 16 => ⟨S1x256, .f32⟩
  | 17 => ⟨S1x256, .f32⟩
  | 18 => ⟨S50000x256, .f32⟩
  | 19 => ⟨S50000, .i32⟩
  | 20 => ⟨S1x800000, .i32⟩
  | 21 => ⟨S800000, .i32⟩
  | 22 => ⟨S850000, .i32⟩
  | 23 => ⟨S1x800000, .i32⟩
  | 24 => ⟨S800000, .i32⟩
  | 25 => ⟨S850000, .i32⟩
  | 26 => ⟨S_, .f32⟩
  | 27 => ⟨S850000, .f32⟩
  | 28 => ⟨S_, .f32⟩
  | 29 => ⟨S50000, .f32⟩
  | 30 => ⟨S850000x1, .i32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S850000x1, .f32⟩
  | 60 => ⟨S1x256x256, .f32⟩
  | 61 => ⟨S256x256, .f32⟩
  | 62 => ⟨S1x256, .f32⟩
  | 63 => ⟨S256, .f32⟩
  | 64 => ⟨S50000x256, .f32⟩
  | 65 => ⟨S_, .i32⟩
  | 66 => ⟨S850000, .i32⟩
  | 67 => ⟨S850000, .i1⟩
  | 68 => ⟨S_, .i32⟩
  | 69 => ⟨S850000, .i32⟩
  | 70 => ⟨S850000, .i32⟩
  | 71 => ⟨S850000, .i32⟩
  | 72 => ⟨S850000x1, .i32⟩
  | 73 => ⟨S850000x256, .f32⟩
  | 74 => ⟨S850000x256, .f32⟩
  | 75 => ⟨S850000x256, .f32⟩
  | 76 => ⟨S_, .f32⟩
  | 77 => ⟨S50000x256, .f32⟩
  | 78 => ⟨S850000x1, .i32⟩
  | 79 => ⟨S50000x256, .f32⟩
  | 80 => ⟨S1x256, .f32⟩
  | 81 => ⟨S50000x256, .f32⟩
  | 82 => ⟨S50000x256, .f32⟩
  | 83 => ⟨S_, .f32⟩
  | 84 => ⟨S50000x256, .f32⟩
  | 85 => ⟨S50000x256, .f32⟩
  | 86 => ⟨S1x256x256, .f32⟩
  | 87 => ⟨S256x256, .f32⟩
  | 88 => ⟨S1x256, .f32⟩
  | 89 => ⟨S256, .f32⟩
  | 90 => ⟨S50000x256, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000x256, .f32⟩
  | 100 => ⟨S850000x256, .f32⟩
  | 101 => ⟨S850000x256, .f32⟩
  | 102 => ⟨S_, .f32⟩
  | 103 => ⟨S50000x256, .f32⟩
  | 104 => ⟨S850000x1, .i32⟩
  | 105 => ⟨S50000x256, .f32⟩
  | 106 => ⟨S1x256, .f32⟩
  | 107 => ⟨S50000x256, .f32⟩
  | 108 => ⟨S50000x256, .f32⟩
  | 109 => ⟨S_, .f32⟩
  | 110 => ⟨S50000x256, .f32⟩
  | 111 => ⟨S50000x256, .f32⟩
  | 112 => ⟨S1x256x256, .f32⟩
  | 113 => ⟨S256x256, .f32⟩
  | 114 => ⟨S1x256, .f32⟩
  | 115 => ⟨S256, .f32⟩
  | 116 => ⟨S50000x256, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x256, .f32⟩
  | 126 => ⟨S850000x256, .f32⟩
  | 127 => ⟨S850000x256, .f32⟩
  | _ => ⟨S50000x64, .f32⟩

abbrev hbmTy0_1 (i : Nat) : BufTy := match i % 128 with
  | 0 => ⟨S_, .f32⟩
  | 1 => ⟨S50000x256, .f32⟩
  | 2 => ⟨S850000x1, .i32⟩
  | 3 => ⟨S50000x256, .f32⟩
  | 4 => ⟨S1x256, .f32⟩
  | 5 => ⟨S50000x256, .f32⟩
  | 6 => ⟨S50000x256, .f32⟩
  | 7 => ⟨S_, .f32⟩
  | 8 => ⟨S50000x256, .f32⟩
  | 9 => ⟨S50000x256, .f32⟩
  | 10 => ⟨S_, .f32⟩
  | 11 => ⟨S256, .f32⟩
  | 12 => ⟨S_, .f32⟩
  | 13 => ⟨S256, .f32⟩
  | 14 => ⟨S256, .f32⟩
  | 15 => ⟨S_, .f32⟩
  | 16 => ⟨S256, .f32⟩
  | 17 => ⟨S512, .f32⟩
  | 18 => ⟨S1x512, .f32⟩
  | 19 => ⟨S1x256, .f32⟩
  | 20 => ⟨S1x256, .f32⟩
  | 21 => ⟨S1x256, .f32⟩
  | 22 => ⟨S_, .f32⟩
  | 23 => ⟨S1x256, .f32⟩
  | 24 => ⟨S1x256, .f32⟩
  | 25 => ⟨S1x128, .f32⟩
  | 26 => ⟨S1x128, .f32⟩
  | 27 => ⟨S1x128, .f32⟩
  | 28 => ⟨S1x256, .f32⟩
  | 29 => ⟨S1x256, .f32⟩
  | 30 => ⟨S1x256, .f32⟩
  | 31 => ⟨S_, .f32⟩
  | 32 => ⟨S1x256, .f32⟩
  | 33 => ⟨S1x256, .f32⟩
  | 34 => ⟨S1x256, .f32⟩
  | 35 => ⟨S1x256, .f32⟩
  | 36 => ⟨S1x256, .f32⟩
  | 37 => ⟨S256, .f32⟩
  | 38 => ⟨S256, .f32⟩
  | 39 => ⟨S256, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S800000, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S256x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S5000x256, .f32⟩
  | .local _ .vmem, ⟨15, _⟩ => ⟨S256x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S256x256, .f32⟩
  | .local _ .vmem, ⟨21, _⟩ => ⟨S5000x256, .f32⟩
  | .local _ .vmem, ⟨22, _⟩ => ⟨S5000x256, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_4 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_6 : Ref sig .tc := ⟨.hbm, 65, rfl⟩
abbrev main_v39 : Ref sig .tc := ⟨.hbm, 66, rfl⟩
abbrev main_v40 : Ref sig .tc := ⟨.hbm, 67, rfl⟩
abbrev main_c_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_8 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_call1_cst : Ref sig .tc := ⟨.hbm, 83, rfl⟩
abbrev main_call1_v0 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_9 : Ref sig .tc := ⟨.hbm, 91, rfl⟩
abbrev main_v60 : Ref sig .tc := ⟨.hbm, 92, rfl⟩
abbrev main_v61 : Ref sig .tc := ⟨.hbm, 93, rfl⟩
abbrev main_c_10 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_11 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_call2_cst : Ref sig .tc := ⟨.hbm, 109, rfl⟩
abbrev main_call2_v0 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_12 : Ref sig .tc := ⟨.hbm, 117, rfl⟩
abbrev main_v81 : Ref sig .tc := ⟨.hbm, 118, rfl⟩
abbrev main_v82 : Ref sig .tc := ⟨.hbm, 119, rfl⟩
abbrev main_c_13 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_14 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_call3_cst : Ref sig .tc := ⟨.hbm, 135, rfl⟩
abbrev main_call3_v0 : Ref sig .tc := ⟨.hbm, 136, rfl⟩
abbrev main_v96 : Ref sig .tc := ⟨.hbm, 137, rfl⟩
abbrev main_cst_15 : Ref sig .tc := ⟨.hbm, 138, rfl⟩
abbrev main_v97 : Ref sig .tc := ⟨.hbm, 139, rfl⟩
abbrev main_cst_16 : Ref sig .tc := ⟨.hbm, 140, rfl⟩
abbrev main_v98 : Ref sig .tc := ⟨.hbm, 141, rfl⟩
abbrev main_v99 : Ref sig .tc := ⟨.hbm, 142, rfl⟩
abbrev main_cst_17 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_call4_cst : Ref sig .tc := ⟨.hbm, 150, rfl⟩
abbrev main_call4_v0 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_call5_cst : Ref sig .tc := ⟨.hbm, 159, rfl⟩
abbrev main_call5_v0 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_18 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_19 : Ref sig .tc := ⟨.hbm, 172, rfl⟩
abbrev main_v123 : Ref sig .tc := ⟨.hbm, 173, rfl⟩
abbrev main_cst_20 : Ref sig .tc := ⟨.hbm, 174, rfl⟩
abbrev main_v124 : Ref sig .tc := ⟨.hbm, 175, rfl⟩
abbrev main_v125 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  shapeCasts_S256_S1x256 : S256.ShapeCasts S1x256
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  inb_S5000x256_S5000x256_0_0 : ∀ a, (![0, 0] : Fin 2 → Nat) a + S5000x256.size a ≤ S5000x256.size a
  h_S5000x256 : 0 < S5000x256.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  shapeCasts_S5000x256_S5000x256 : S5000x256.ShapeCasts S5000x256
  shapeCasts_S256x256_S256x256 : S256x256.ShapeCasts S256x256
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  reducesTo_S50000x256_S256_d0 : S50000x256.ReducesTo [0] S256
  h_S_ : 0 < S_.numel
  bcast_S_S256 : S_.BroadcastsInDim S256 (![] : Fin 0 → Fin S256.rank)
  concatenates_S256_S256_S512_d0 : Shape.Concatenates [S256, S256] S512 0
  bcast_S512_S1x512_1 : S512.BroadcastsInDim S1x512 (![1] : Fin 1 → Fin S1x512.rank)
  bcast_S_S1x256 : S_.BroadcastsInDim S1x256 (![] : Fin 0 → Fin S1x256.rank)
  bcast_S128_S1x128_1 : S128.BroadcastsInDim S1x128 (![1] : Fin 1 → Fin S1x128.rank)
  reducesTo_S256_S_d0 : S256.ReducesTo [0] S_
  bcast_S_S800000 : S_.BroadcastsInDim S800000 (![] : Fin 0 → Fin S800000.rank)
  dot_S5000x64_S64x256_S5000x256_1_0_0_1_n_n_wf : DotDims.WF S5000x64 S64x256 S5000x256 [1] [0] [0] [1] [] []
  dot_S5000x256_S256x256_S5000x256_1_0_0_1_n_n_wf : DotDims.WF S5000x256 S256x256 S5000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S1x512_S512x256_S1x256_1_0_0_1_n_n_wf : DotDims.WF S1x512 S512x256 S1x256 [1] [0] [0] [1] [] []
  dot_S1x256_S256x128_S1x128_1_0_0_1_n_n_wf : DotDims.WF S1x256 S256x128 S1x128 [1] [0] [0] [1] [] []
  dot_S1x128_S128x256_S1x256_1_0_0_1_n_n_wf : DotDims.WF S1x128 S128x256 S1x256 [1] [0] [0] [1] [] []
  dot_S1x256_S256x256_S1x256_1_0_0_1_n_n_wf : DotDims.WF S1x256 S256x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x256.size a ≤ S50000x256.size a
  hwx3_2 : ∀ i : grid3.Coords, EltTy.bits .f32 = 32 ∨ (Rect.block (s := S50000x256) S5000x256.size (cc3_transform_2 i) (hinb3_2 i)).WholeWords (EltTy.packing .f32)

variable [Facts₀]

def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S1x512_S512x256_S1x256_1_0_0_1_n_n : DotDims S1x512 S512x256 S1x256 where
  lhsContracting := [1]
  rhsContracting := [0]
  lhsNonContracting := [0]
  rhsNonContracting := [1]
  lhsBatch := []
  rhsBatch := []
  wf := dot_S1x512_S512x256_S1x256_1_0_0_1_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S1x128_S128x256_S1x256_1_0_0_1_n_n : DotDims S1x128 S128x256 S1x256 where
  lhsContracting := [1]
  rhsContracting := [0]
  lhsNonContracting := [0]
  rhsNonContracting := [1]
  lhsBatch := []
  rhsBatch := []
  wf := dot_S1x128_S128x256_S1x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v54) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v75) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S5000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x256 : Shape := ⟨2, ![64, 256]⟩
abbrev S256 : Shape := ⟨1, ![256]⟩
abbrev S256x256 : Shape := ⟨2, ![256, 256]⟩
abbrev S3x256x256 : Shape := ⟨3, ![3, 256, 256]⟩
abbrev S3x256 : Shape := ⟨2, ![3, 256]⟩
abbrev S512x256 : Shape := ⟨2, ![512, 256]⟩
abbrev S256x128 : Shape := ⟨2, ![256, 128]⟩
abbrev S128 : Shape := ⟨1, ![128]⟩
abbrev S128x256 : Shape := ⟨2, ![128, 256]⟩
abbrev S50000x256 : Shape := ⟨2, ![50000, 256]⟩
abbrev S1x256 : Shape := ⟨2, ![1, 256]⟩
abbrev S_ : Shape := ⟨0, ![]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S1x256x256 : Shape := ⟨3, ![1, 256, 256]⟩
abbrev S850000x256 : Shape := ⟨2, ![850000, 256]⟩
abbrev S512 : Shape := ⟨1, ![512]⟩
abbrev S1x512 : Shape := ⟨2, ![1, 512]⟩
abbrev S1x128 : Shape := ⟨2, ![1, 128]⟩
abbrev S800000x1 : Shape := ⟨2, ![800000, 1]⟩
abbrev S800000x256 : Shape := ⟨2, ![800000, 256]⟩

abbrev nBuf : Space → Nat
  | .hbm => 207
  | .vmem => 0
  | .smem => 0
  | _ => 0

abbrev hbmTy0_0 (i : Nat) : BufTy := match i % 128 with
  | 0 => ⟨S50000x64, .f32⟩
  | 1 => ⟨S2x800000, .i32⟩
  | 2 => ⟨S64x256, .f32⟩
  | 3 => ⟨S256, .f32⟩
  | 4 => ⟨S256x256, .f32⟩
  | 5 => ⟨S256, .f32⟩
  | 6 => ⟨S3x256x256, .f32⟩
  | 7 => ⟨S3x256, .f32⟩
  | 8 => ⟨S512x256, .f32⟩
  | 9 => ⟨S256, .f32⟩
  | 10 => ⟨S256x128, .f32⟩
  | 11 => ⟨S128, .f32⟩
  | 12 => ⟨S128x256, .f32⟩
  | 13 => ⟨S256, .f32⟩
  | 14 => ⟨S256x256, .f32⟩
  | 15 => ⟨S256, .f32⟩
  | 16 => ⟨S50000x256, .f32⟩
  | 17 => ⟨S1x256, .f32⟩
  | 18 => ⟨S50000x256, .f32⟩
  | 19 => ⟨S50000x256, .f32⟩
  | 20 => ⟨S_, .f32⟩
  | 21 => ⟨S50000x256, .f32⟩
  | 22 => ⟨S50000x256, .f32⟩
  | 23 => ⟨S50000x256, .f32⟩
  | 24 => ⟨S1x256, .f32⟩
  | 25 => ⟨S50000x256, .f32⟩
  | 26 => ⟨S50000x256, .f32⟩
  | 27 => ⟨S50000, .i32⟩
  | 28 => ⟨S1x800000, .i32⟩
  | 29 => ⟨S800000, .i32⟩
  | 30 => ⟨S850000, .i32⟩
  | 31 => ⟨S1x800000, .i32⟩
  | 32 => ⟨S800000, .i32⟩
  | 33 => ⟨S850000, .i32⟩
  | 34 => ⟨S_, .f32⟩
  | 35 => ⟨S850000, .f32⟩
  | 36 => ⟨S_, .f32⟩
  | 37 => ⟨S50000, .f32⟩
  | 38 => ⟨S850000x1, .i32⟩
  | 39 => ⟨S50000, .f32⟩
  | 40 => ⟨S_, .f32⟩
  | 41 => ⟨S50000, .f32⟩
  | 42 => ⟨S50000, .i1⟩
  | 43 => ⟨S50000, .f32⟩
  | 44 => ⟨S_, .f32⟩
  | 45 => ⟨S_, .f32⟩
  | 46 => ⟨S50000, .f32⟩
  | 47 => ⟨S50000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000, .f32⟩
  | 66 => ⟨S850000, .f32⟩
  | 67 => ⟨S850000x1, .f32⟩
  | 68 => ⟨S1x256x256, .f32⟩
  | 69 => ⟨S256x256, .f32⟩
  | 70 => ⟨S50000x256, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000x256, .f32⟩
  | 80 => ⟨S850000x256, .f32⟩
  | 81 => ⟨S850000x256, .f32⟩
  | 82 => ⟨S_, .f32⟩
  | 83 => ⟨S50000x256, .f32⟩
  | 84 => ⟨S850000x1, .i32⟩
  | 85 => ⟨S50000x256, .f32⟩
  | 86 => ⟨S1x256, .f32⟩
  | 87 => ⟨S256, .f32⟩
  | 88 => ⟨S1x256, .f32⟩
  | 89 => ⟨S50000x256, .f32⟩
  | 90 => ⟨S50000x256, .f32⟩
  | 91 => ⟨S_, .f32⟩
  | 92 => ⟨S50000x256, .f32⟩
  | 93 => ⟨S50000x256, .f32⟩
  | 94 => ⟨S1x256x256, .f32⟩
  | 95 => ⟨S256x256, .f32⟩
  | 96 => ⟨S50000x256, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x256, .f32⟩
  | 106 => ⟨S850000x256, .f32⟩
  | 107 => ⟨S850000x256, .f32⟩
  | 108 => ⟨S_, .f32⟩
  | 109 => ⟨S50000x256, .f32⟩
  | 110 => ⟨S850000x1, .i32⟩
  | 111 => ⟨S50000x256, .f32⟩
  | 112 => ⟨S1x256, .f32⟩
  | 113 => ⟨S256, .f32⟩
  | 114 => ⟨S1x256, .f32⟩
  | 115 => ⟨S50000x256, .f32⟩
  | 116 => ⟨S50000x256, .f32⟩
  | 117 => ⟨S_, .f32⟩
  | 118 => ⟨S50000x256, .f32⟩
  | 119 => ⟨S50000x256, .f32⟩
  | 120 => ⟨S1x256x256, .f32⟩
  | 121 => ⟨S256x256, .f32⟩
  | 122 => ⟨S50000x256, .f32⟩
  | 123 => ⟨S_, .i32⟩
  | 124 => ⟨S850000, .i32⟩
  | 125 => ⟨S850000, .i1⟩
  | 126 => ⟨S_, .i32⟩
  | 127 => ⟨S850000, .i32⟩
  | _ => ⟨S50000x64, .f32⟩

abbrev hbmTy0_1 (i : Nat) : BufTy := match i % 128 with
  | 0 => ⟨S850000, .i32⟩
  | 1 => ⟨S850000, .i32⟩
  | 2 => ⟨S850000x1, .i32⟩
  | 3 => ⟨S850000x256, .f32⟩
  | 4 => ⟨S850000x256, .f32⟩
  | 5 => ⟨S850000x256, .f32⟩
  | 6 => ⟨S_, .f32⟩
  | 7 => ⟨S50000x256, .f32⟩
  | 8 => ⟨S850000x1, .i32⟩
  | 9 => ⟨S50000x256, .f32⟩
  | 10 => ⟨S1x256, .f32⟩
  | 11 => ⟨S256, .f32⟩
  | 12 => ⟨S1x256, .f32⟩
  | 13 => ⟨S50000x256, .f32⟩
  | 14 => ⟨S50000x256, .f32⟩
  | 15 => ⟨S_, .f32⟩
  | 16 => ⟨S50000x256, .f32⟩
  | 17 => ⟨S50000x256, .f32⟩
  | 18 => ⟨S_, .f32⟩
  | 19 => ⟨S256, .f32⟩
  | 20 => ⟨S_, .f32⟩
  | 21 => ⟨S256, .f32⟩
  | 22 => ⟨S256, .f32⟩
  | 23 => ⟨S_, .f32⟩
  | 24 => ⟨S256, .f32⟩
  | 25 => ⟨S512, .f32⟩
  | 26 => ⟨S1x512, .f32⟩
  | 27 => ⟨S1x256, .f32⟩
  | 28 => ⟨S1x256, .f32⟩
  | 29 => ⟨S1x256, .f32⟩
  | 30 => ⟨S_, .f32⟩
  | 31 => ⟨S1x256, .f32⟩
  | 32 => ⟨S1x256, .f32⟩
  | 33 => ⟨S1x128, .f32⟩
  | 34 => ⟨S1x128, .f32⟩
  | 35 => ⟨S1x128, .f32⟩
  | 36 => ⟨S1x256, .f32⟩
  | 37 => ⟨S1x256, .f32⟩
  | 38 => ⟨S1x256, .f32⟩
  | 39 => ⟨S_, .f32⟩
  | 40 => ⟨S1x256, .f32⟩
  | 41 => ⟨S1x256, .f32⟩
  | 42 => ⟨S1x256, .f32⟩
  | 43 => ⟨S1x256, .f32⟩
  | 44 => ⟨S1x256, .f32⟩
  | 45 => ⟨S50000x256, .f32⟩
  | 46 => ⟨S1x800000, .i32⟩
  | 47 => ⟨S800000, .i32⟩
  | 48 => ⟨S1x800000, .i32⟩
  | 49 => ⟨S800000, .i32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x256, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x256, .f32⟩
  | 68 => ⟨S800000x256, .f32⟩
  | 69 => ⟨S_, .f32⟩
  | 70 => ⟨S800000, .f32⟩
  | 71 => ⟨S800000, .f32⟩
  | 72 => ⟨S800000, .f32⟩
  | 73 => ⟨S_, .f32⟩
  | 74 => ⟨S800000, .f32⟩
  | 75 => ⟨S800000, .f32⟩
  | 76 => ⟨S_, .f32⟩
  | 77 => ⟨S800000, .f32⟩
  | 78 => ⟨S800000, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_1 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_call1_v0 : Ref sig .tc := ⟨.hbm, 45, rfl⟩
abbrev main_call1_v1 : Ref sig .tc := ⟨.hbm, 46, rfl⟩
abbrev main_v23 : Ref sig .tc := ⟨.hbm, 47, rfl⟩
abbrev main_c : Ref sig .tc := ⟨.hbm, 48, rfl⟩
abbrev main_v24 : Ref sig .tc := ⟨.hbm, 49, rfl⟩
abbrev main_v25 : Ref sig .tc := ⟨.hbm, 50, rfl⟩
abbrev main_c_3 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_4 : Ref sig .tc := ⟨.hbm, 57, rfl⟩
abbrev main_v31 : Ref sig .tc := ⟨.hbm, 58, rfl⟩
abbrev main_v32 : Ref sig .tc := ⟨.hbm, 59, rfl⟩
abbrev main_c_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_6 : Ref sig .tc := ⟨.hbm, 71, rfl⟩
abbrev main_v43 : Ref sig .tc := ⟨.hbm, 72, rfl⟩
abbrev main_v44 : Ref sig .tc := ⟨.hbm, 73, rfl⟩
abbrev main_c_7 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_call2_cst : Ref sig .tc := ⟨.hbm, 91, rfl⟩
abbrev main_call2_v0 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_9 : Ref sig .tc := ⟨.hbm, 97, rfl⟩
abbrev main_v64 : Ref sig .tc := ⟨.hbm, 98, rfl⟩
abbrev main_v65 : Ref sig .tc := ⟨.hbm, 99, rfl⟩
abbrev main_c_10 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_11 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_call3_cst : Ref sig .tc := ⟨.hbm, 117, rfl⟩
abbrev main_call3_v0 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_12 : Ref sig .tc := ⟨.hbm, 123, rfl⟩
abbrev main_v85 : Ref sig .tc := ⟨.hbm, 124, rfl⟩
abbrev main_v86 : Ref sig .tc := ⟨.hbm, 125, rfl⟩
abbrev main_c_13 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_14 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_call4_cst : Ref sig .tc := ⟨.hbm, 143, rfl⟩
abbrev main_call4_v0 : Ref sig .tc := ⟨.hbm, 144, rfl⟩
abbrev main_v102 : Ref sig .tc := ⟨.hbm, 145, rfl⟩
abbrev main_cst_15 : Ref sig .tc := ⟨.hbm, 146, rfl⟩
abbrev main_v103 : Ref sig .tc := ⟨.hbm, 147, rfl⟩
abbrev main_cst_16 : Ref sig .tc := ⟨.hbm, 148, rfl⟩
abbrev main_v104 : Ref sig .tc := ⟨.hbm, 149, rfl⟩
abbrev main_v105 : Ref sig .tc := ⟨.hbm, 150, rfl⟩
abbrev main_cst_17 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_call5_cst : Ref sig .tc := ⟨.hbm, 158, rfl⟩
abbrev main_call5_v0 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_call6_cst : Ref sig .tc := ⟨.hbm, 167, rfl⟩
abbrev main_call6_v0 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_c_18 : Ref sig .tc := ⟨.hbm, 178, rfl⟩
abbrev main_v128 : Ref sig .tc := ⟨.hbm, 179, rfl⟩
abbrev main_v129 : Ref sig .tc := ⟨.hbm, 180, rfl⟩
abbrev main_c_19 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_c_20 : Ref sig .tc := ⟨.hbm, 187, rfl⟩
abbrev main_v135 : Ref sig .tc := ⟨.hbm, 188, rfl⟩
abbrev main_v136 : Ref sig .tc := ⟨.hbm, 189, rfl⟩
abbrev main_c_21 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_cst_22 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_cst_23 : Ref sig .tc := ⟨.hbm, 201, rfl⟩
abbrev main_v146 : Ref sig .tc := ⟨.hbm, 202, rfl⟩
abbrev main_v147 : Ref sig .tc := ⟨.hbm, 203, rfl⟩
abbrev main_cst_24 : Ref sig .tc := ⟨.hbm, 204, rfl⟩
abbrev main_v148 : Ref sig .tc := ⟨.hbm, 205, rfl⟩
abbrev main_v149 : Ref sig .tc := ⟨.hbm, 206, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S3x256x256_S1x256x256_0_0_0 : S3x256x256.Slices ![0, 0, 0] S1x256x256
  shapeCasts_S1x256x256_S256x256 : S1x256x256.ShapeCasts S256x256
  bcast_S850000x1_S850000x256_0_1 : S850000x1.BroadcastsInDim S850000x256 (![0, 1] : Fin 2 → Fin S850000x256.rank)
  slices_S3x256_S1x256_0_0 : S3x256.Slices ![0, 0] S1x256
  shapeCasts_S1x256_S256 : S1x256.ShapeCasts S256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  reducesTo_S50000x256_S256_d0 : S50000x256.ReducesTo [0] S256
  h_S_ : 0 < S_.numel
  bcast_S_S256 : S_.BroadcastsInDim S256 (![] : Fin 0 → Fin S256.rank)
  concatenates_S256_S256_S512_d0 : Shape.Concatenates [S256, S256] S512 0
  bcast_S512_S1x512_1 : S512.BroadcastsInDim S1x512 (![1] : Fin 1 → Fin S1x512.rank)
  bcast_S_S1x256 : S_.BroadcastsInDim S1x256 (![] : Fin 0 → Fin S1x256.rank)
  bcast_S128_S1x128_1 : S128.BroadcastsInDim S1x128 (![1] : Fin 1 → Fin S1x128.rank)
  bcast_S_S800000 : S_.BroadcastsInDim S800000 (![] : Fin 0 → Fin S800000.rank)
  bcast_S800000_S800000x1_0 : S800000.BroadcastsInDim S800000x1 (![0] : Fin 1 → Fin S800000x1.rank)
  reducesTo_S800000x256_S800000_d1 : S800000x256.ReducesTo [1] S800000
  dot_S50000x64_S64x256_S50000x256_1_0_0_1_n_n_wf : DotDims.WF S50000x64 S64x256 S50000x256 [1] [0] [0] [1] [] []
  dot_S50000x256_S256x256_S50000x256_1_0_0_1_n_n_wf : DotDims.WF S50000x256 S256x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S1x512_S512x256_S1x256_1_0_0_1_n_n_wf : DotDims.WF S1x512 S512x256 S1x256 [1] [0] [0] [1] [] []
  dot_S1x256_S256x128_S1x128_1_0_0_1_n_n_wf : DotDims.WF S1x256 S256x128 S1x128 [1] [0] [0] [1] [] []
  dot_S1x128_S128x256_S1x256_1_0_0_1_n_n_wf : DotDims.WF S1x128 S128x256 S1x256 [1] [0] [0] [1] [] []
  dot_S1x256_S256x256_S1x256_1_0_0_1_n_n_wf : DotDims.WF S1x256 S256x256 S1x256 [1] [0] [0] [1] [] []
  gather_S50000x256_S800000x1_S800000x256_1_0_n_n_0_1_1256_wf : GatherDims.WF S50000x256 S800000x1 S800000x256 [1] [0] [] [0] [] 1 ![1, 256]

variable [Facts₀]

def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S1x512_S512x256_S1x256_1_0_0_1_n_n : DotDims S1x512 S512x256 S1x256 where
  lhsContracting := [1]
  rhsContracting := [0]
  lhsNonContracting := [0]
  rhsNonContracting := [1]
  lhsBatch := []
  rhsBatch := []
  wf := dot_S1x512_S512x256_S1x256_1_0_0_1_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S1x128_S128x256_S1x256_1_0_0_1_n_n : DotDims S1x128 S128x256 S1x256 where
  lhsContracting := [1]
  rhsContracting := [0]
  lhsNonContracting := [0]
  rhsNonContracting := [1]
  lhsBatch := []
  rhsBatch := []
  wf := dot_S1x128_S128x256_S1x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf

class Facts : Prop extends Facts₀ where

variable [Facts]
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.Pay.lean ====
/-
  The bodies' arithmetic read at an index, on the extended reals.

  Each of the three layer kernels stores the product of its row tile with the whole weight matrix: the entry at
  (p, q) of the stored tile is the sum over k of tile (p, k) · weight (k, q) — the roundings on the way into the
  matrix unit are the identity on the extended reals and the accumulator is the zero splat.

  The encoder's body stores, at (p, q), the sum over k of max (Σ_j x (p, j) · w₁ (j, k) + b₁ (0, k), 0) · w₂ (k, q),
  plus b₂ (0, q): two such products with a bias row broadcast down the tile after each and a clamp at zero between.
-/
import proofs.«140012_j36867999269273_1_alg».proof.Proof.Gen.KernelIdeal.Skeleton
import proofs.«140012_j36867999269273_1_alg».proof.Proof.LibDot
import Idealize.ShloMosaic.Lib.Pipeline.Value
import Idealize.ShloMosaic.Lib.ValueIdx
import Idealize.ShloMosaic.PureOps.Ideal.Laws

noncomputable section

namespace Cert.KernelIdeal.Pay

open Idealize.ShloMosaic Idealize.ShloMosaic.ValueIdx Cert.KernelIdeal Cert.KernelIdeal.Gen

/-- The first layer kernel's stored tile at (p, q): row p of the tile against column q of the weights. -/
theorem conv1_apply (x0 : Vec Ideal S5000x256 .f32) (x3 : Vec Ideal S256x256 .f32) (p : Fin 5000) (q : Fin 256) :
    k1_pay1 (F := Ideal) x0 x3 (ix2 p q) = ∑ k : Fin 256, x0 (ix2 p k) * x3 (ix2 k q) := by
  have e : k1_pay1 (F := Ideal) x0 x3
      = FloatOps.matmul dot_S5000x256_S256x256_S5000x256_1_0_0_1_n_n none (truncf .bf16 x0 bitsLt_bf16_f32) (truncf .bf16 x3 bitsLt_bf16_f32)
          (constant S5000x256 .f32 0x00000000#32) := by
    unfold k1_pay1
    simp only [shapeCast_self]
  rw [e]
  exact LibDot.matmul_zero_plain_apply dot_S5000x256_S256x256_S5000x256_1_0_0_1_n_n rfl rfl rfl rfl rfl rfl none
    (truncf .bf16 x0 bitsLt_bf16_f32) (truncf .bf16 x3 bitsLt_bf16_f32) (ix2 p q)

/-- The second layer kernel's stored tile at an index: the same sum. -/
theorem conv2_apply (x0 : Vec Ideal S5000x256 .f32) (x3 : Vec Ideal S256x256 .f32) (p : Fin 5000) (q : Fin 256) :
    k2_pay1 (F := Ideal) x0 x3 (ix2 p q) = ∑ k : Fin 256, x0 (ix2 p k) * x3 (ix2 k q) := by
  have e : k2_pay1 (F := Ideal) x0 x3
      = FloatOps.matmul dot_S5000x256_S256x256_S5000x256_1_0_0_1_n_n none (truncf .bf16 x0 bitsLt_bf16_f32) (truncf .bf16 x3 bitsLt_bf16_f32)
          (constant S5000x256 .f32 0x00000000#32) := by
    unfold k2_pay1
    simp only [shapeCast_self]
  rw [e]
  exact LibDot.matmul_zero_plain_apply dot_S5000x256_S256x256_S5000x256_1_0_0_1_n_n rfl rfl rfl rfl rfl rfl none
    (truncf .bf16 x0 bitsLt_bf16_f32) (truncf .bf16 x3 bitsLt_bf16_f32) (ix2 p q)

/-- The third layer kernel's stored tile at an index: the same sum. -/
theorem conv3_apply (x0 : Vec Ideal S5000x256 .f32) (x3 : Vec Ideal S256x256 .f32) (p : Fin 5000) (q : Fin 256) :
    k3_pay1 (F := Ideal) x0 x3 (ix2 p q) = ∑ k : Fin 256, x0 (ix2 p k) * x3 (ix2 k q) := by
  have e : k3_pay1 (F := Ideal) x0 x3
      = FloatOps.matmul dot_S5000x256_S256x256_S5000x256_1_0_0_1_n_n none (truncf .bf16 x0 bitsLt_bf16_f32) (truncf .bf16 x3 bitsLt_bf16_f32)
          (constant S5000x256 .f32 0x00000000#32) := by
    unfold k3_pay1
    simp only [shapeCast_self]
  rw [e]
  exact LibDot.matmul_zero_plain_apply dot_S5000x256_S256x256_S5000x256_1_0_0_1_n_n rfl rfl rfl rfl rfl rfl none
    (truncf .bf16 x0 bitsLt_bf16_f32) (truncf .bf16 x3 bitsLt_bf16_f32) (ix2 p q)

/-- A 1 × 256 row broadcast down a 5000 × 256 tile reads the row at the column. -/
theorem rowBcast_apply (b : Vec Ideal S1x256 .f32) (p : Fin 5000) (q : Fin 256) :
    broadcastTo S5000x256 b broadcasts_S1x256_S5000x256 (ix2 p q) = b (ix2 0 q) :=
  broadcastTo_apply b broadcasts_S1x256_S5000x256 (ix2 p q) (ix2 0 q) (fun a => match a with
    | ⟨0, _⟩ => rfl
    | ⟨1, _⟩ => rfl)

/-- The encoder's stored tile at (y 0, y 1). -/
theorem enc_apply (x0 : Vec Ideal S5000x64 .f32) (x2 : Vec Ideal S64x256 .f32) (x5 : Vec Ideal S1x256 .f32)
    (x11 : Vec Ideal S256x256 .f32) (x15 : Vec Ideal S1x256 .f32) (p : Fin 5000) (q : Fin 256) :
    k0_pay1 (F := Ideal) x0 x2 x5 x11 x15 (ix2 p q)
      = (∑ k : Fin 256, max ((∑ j : Fin 64, x0 (ix2 p j) * x2 (ix2 j k)) + x5 (ix2 0 k)) (Ideal.ofBits .f32 0x00000000#32)
          * x11 (ix2 k q)) + x15 (ix2 0 q) := by
  have e : k0_pay1 (F := Ideal) x0 x2 x5 x11 x15
      = addf (FloatOps.matmul dot_S5000x256_S256x256_S5000x256_1_0_0_1_n_n none
          (truncf .bf16 (maximumf (addf (FloatOps.matmul dot_S5000x64_S64x256_S5000x256_1_0_0_1_n_n none
              (truncf .bf16 x0 bitsLt_bf16_f32) (truncf .bf16 x2 bitsLt_bf16_f32) (constant S5000x256 .f32 0x00000000#32))
            (broadcastTo S5000x256 x5 broadcasts_S1x256_S5000x256)) (broadcast S5000x256 (Ideal.ofBits .f32 0x00000000#32))) bitsLt_bf16_f32)
          (truncf .bf16 x11 bitsLt_bf16_f32) (constant S5000x256 .f32 0x00000000#32)) (broadcastTo S5000x256 x15 broadcasts_S1x256_S5000x256) := by
    unfold k0_pay1
    simp only [shapeCast_self]
    rfl
  rw [e]
  refine congrArg₂ (· + ·) ?_ (rowBcast_apply x15 p q)
  refine (LibDot.matmul_zero_plain_apply dot_S5000x256_S256x256_S5000x256_1_0_0_1_n_n rfl rfl rfl rfl rfl rfl none _ _ (ix2 p q)).trans ?_
  refine Finset.sum_congr rfl fun k _ => ?_
  refine congrArg (· * x11 (ix2 k q)) ?_
  refine congrArg₂ max (congrArg₂ (· + ·) ?_ (rowBcast_apply x5 p k)) rfl
  exact LibDot.matmul_zero_plain_apply dot_S5000x64_S64x256_S5000x256_1_0_0_1_n_n rfl rfl rfl rfl rfl rfl none _ _ (ix2 p k)

end Cert.KernelIdeal.Pay

end
-- ==== Proof.Enc.lean ====
/-
  What the encoder kernel leaves in its output array.

  The grid has ten points; point t reads rows 5000·t … 5000·t + 4999 of the input features and the whole of the two
  weight matrices and the two bias rows, and writes back the same rows of the output. The written entry (r, q) is
  Σ_k max (Σ_j x (r, j) · w₁ (j, k) + b₁ (0, k), 0) · w₂ (k, q) + b₂ (0, q), which does not depend on the tile the row
  sits in; the ten row tiles cover every row, so the array ends as that function of the arrays the region found.
-/
import proofs.«140012_j36867999269273_1_alg».proof.Proof.Gen.KernelIdeal.Frame
import proofs.«140012_j36867999269273_1_alg».proof.Proof.Pay
import Idealize.ShloMosaic.Lib.Pipeline.Value
import Idealize.ShloMosaic.Lib.ValueIdx

set_option maxRecDepth 16384

noncomputable section

namespace Cert.KernelIdeal.Enc

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The encoder, entry by entry: two matrix products, a bias row added after each, a clamp at zero between. -/
abbrev enc (x : S50000x64.Idx → EReal) (w1 : S64x256.Idx → EReal) (b1 : S1x256.Idx → EReal)
    (w2 : S256x256.Idx → EReal) (b2 : S1x256.Idx → EReal) : S50000x256.Idx → EReal :=
  fun i => (∑ k : Fin 256, max ((∑ j : Fin 64, x (ix2 (⟨(i 0).val, (i 0).isLt⟩ : Fin 50000) j) * w1 (ix2 j k)) + b1 (ix2 0 k))
      (Ideal.ofBits .f32 0x00000000#32) * w2 (ix2 k (⟨(i 1).val, (i 1).isLt⟩ : Fin 256))) + b2 (ix2 0 (⟨(i 1).val, (i 1).isLt⟩ : Fin 256))

/-- The index maps over the grid: the input tile and the output tile are the point's row tile, every other block is
    its whole array. -/
theorem idx_facts : ∀ t : Fin cfg0.N, win0_0.index t (0 : Fin 2) = t.val
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val
    ∧ win0_5.index t (1 : Fin 2) = 0 :=
  (by decide +kernel : ∀ t : Fin grid0.N, _)

/-- What point t writes back is its row tile of the encoder of the arrays as the region finds them. -/
theorem flushed_eq (c : Dev nD) (t : Fin cfg0.N) :
    (dat0 (F := Ideal) V c).flushed 5 t
      = ((cfg0.win 5).blk t).view.read (Elt Ideal)
          (enc (V c main_arg0) (V c main_arg2) (V c main_v0) (V c main_arg4) (V c main_v1)) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x256) hz, View.ld_unit_zero (S := S1x256) hz,
    View.ld_unit_zero (S := S256x256) hz]
  obtain ⟨e0, e1, e2, e3, e4, e5, e6, e7, e8, e9, e10, e11⟩ := idx_facts t
  funext j
  obtain ⟨p, q, rfl⟩ : ∃ (p : Fin 5000) (q : Fin 256), j = ix2 p q := ⟨j 0, j 1, eq_ix2 j⟩
  refine (Pay.enc_apply (iblk0 V c 0 t) (iblk0 V c 1 t) (iblk0 V c 2 t) (iblk0 V c 3 t) (iblk0 V c 4 t) p q).trans ?_
  show _ = enc (V c main_arg0) (V c main_arg2) (V c main_v0) (V c main_arg4) (V c main_v1) (((cfg0.win 5).blk t).view.emb (ix2 p q))
  refine congrArg₂ (· + ·) (Finset.sum_congr rfl fun k _ => congrArg₂ (· * ·) (congrArg₂ max (congrArg₂ (· + ·)
    (Finset.sum_congr rfl fun j' _ => congrArg₂ (· * ·) ?_ ?_) ?_) rfl) ?_) ?_
  · show V c main_arg0 (((cfg0.win 0).blk t).view.emb (ix2 p j')) = _
    refine congrArg _ (funext fun a => Fin.ext ?_)
    match a with
    | ⟨0, _⟩ =>
      show win0_0.index t (0 : Fin 2) * 5000 + 1 * p.val = win0_5.index t (0 : Fin 2) * 5000 + 1 * p.val
      omega
    | ⟨1, _⟩ =>
      show win0_0.index t (1 : Fin 2) * 64 + 1 * j'.val = j'.val
      omega
  · show V c main_arg2 (((cfg0.win 1).blk t).view.emb (ix2 j' k)) = _
    refine congrArg _ (funext fun a => Fin.ext ?_)
    match a with
    | ⟨0, _⟩ =>
      show win0_1.index t (0 : Fin 2) * 64 + 1 * j'.val = j'.val
      omega
    | ⟨1, _⟩ =>
      show win0_1.index t (1 : Fin 2) * 256 + 1 * k.val = k.val
      omega
  · show V c main_v0 (((cfg0.win 2).blk t).view.emb (ix2 (0 : Fin 1) k)) = _
    refine congrArg _ (funext fun a => Fin.ext ?_)
    match a with
    | ⟨0, _⟩ =>
      show win0_2.index t (0 : Fin 2) * 1 + 1 * (0 : Fin 1).val = 0
      omega
    | ⟨1, _⟩ =>
      show win0_2.index t (1 : Fin 2) * 256 + 1 * k.val = k.val
      omega
  · show V c main_arg4 (((cfg0.win 3).blk t).view.emb (ix2 k q)) = _
    refine congrArg _ (funext fun a => Fin.ext ?_)
    match a with
    | ⟨0, _⟩ =>
      show win0_3.index t (0 : Fin 2) * 256 + 1 * k.val = k.val
      omega
    | ⟨1, _⟩ =>
      show win0_3.index t (1 : Fin 2) * 256 + 1 * q.val = win0_5.index t (1 : Fin 2) * 256 + 1 * q.val
      omega
  · show V c main_v1 (((cfg0.win 4).blk t).view.emb (ix2 (0 : Fin 1) q)) = _
    refine congrArg _ (funext fun a => Fin.ext ?_)
    match a with
    | ⟨0, _⟩ =>
      show win0_4.index t (0 : Fin 2) * 1 + 1 * (0 : Fin 1).val = 0
      omega
    | ⟨1, _⟩ =>
      show win0_4.index t (1 : Fin 2) * 256 + 1 * q.val = win0_5.index t (1 : Fin 2) * 256 + 1 * q.val
      omega

/-- An index of the output array lies in point t's block iff each coordinate lies in the block's range on its axis. -/
theorem mem_blk (t : Fin cfg0.N) (i : S50000x256.Idx) :
    i ∈ ((cfg0.win 5).blk t).view.set ↔ ∀ a : Fin 2, win0_5.index t a * S5000x256.size a ≤ (i a).val
      ∧ (i a).val < win0_5.index t a * S5000x256.size a + S5000x256.size a := by
  show i ∈ ((View.whole main_v2).slice (win0_5.rect t)).set ↔ _
  rw [View.set_slice_whole, Rect.mem_set_unit]
  exact Iff.rfl

/-- Every index of the output array is written: row r by the point r / 5000. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have ht : (i 0).val / 5000 < 10 := by omega
  obtain ⟨e0, e1, e2, e3, e4, e5, e6, e7, e8, e9, e10, e11⟩ := idx_facts ⟨(i 0).val / 5000, ht⟩
  have e10' : win0_5.index ⟨(i 0).val / 5000, ht⟩ (0 : Fin 2) = (i 0).val / 5000 := e10
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    omega
  | ⟨1, _⟩ =>
    show win0_5.index ⟨(i 0).val / 5000, ht⟩ (1 : Fin 2) * 256 ≤ (i 1).val
      ∧ (i 1).val < win0_5.index ⟨(i 0).val / 5000, ht⟩ (1 : Fin 2) * 256 + 256
    omega

/-- The output array after the region: the encoder of the arrays as the region found them. -/
theorem final (c : Dev nD) :
    (dat0 (F := Ideal) V c).arrAt 5 cfg0.N
      = enc (V c main_arg0) (V c main_arg2) (V c main_v0) (V c main_arg4) (V c main_v1) :=
  (dat0 (F := Ideal) V c).arrAt_eq_of_cover 5 (enc (V c main_arg0) (V c main_arg2) (V c main_v0) (V c main_arg4) (V c main_v1))
    (fun t _ => flushed_eq V c t) cover

end Cert.KernelIdeal.Enc

end
-- ==== Proof.Conv1.lean ====
/-
  What layer kernel 1 leaves in its output array: the whole product.

  The grid has ten points; point t reads rows 5000·t … 5000·t + 4999 of the node features and the whole 256 × 256 weight
  matrix, and writes back the same rows of the output. Each written entry (r, q) is the sum over k of
  features (r, k) · weights (k, q), which does not depend on the tile the row sits in; the ten row tiles cover every
  row, so the array ends as that product of the arrays the region found.
-/
import proofs.«140012_j36867999269273_1_alg».proof.Proof.Gen.KernelIdeal.Frame
import proofs.«140012_j36867999269273_1_alg».proof.Proof.Pay
import Idealize.ShloMosaic.Lib.Pipeline.Value
import Idealize.ShloMosaic.Lib.ValueIdx

set_option maxRecDepth 16384

noncomputable section

namespace Cert.KernelIdeal.Conv1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The product of a 50000 × 256 array with a 256 × 256 one, entry by entry. -/
abbrev prod (h : S50000x256.Idx → EReal) (w : S256x256.Idx → EReal) : S50000x256.Idx → EReal :=
  fun i => ∑ k : Fin 256, h (ix2 (⟨(i 0).val, (i 0).isLt⟩ : Fin 50000) k) * w (ix2 k (⟨(i 1).val, (i 1).isLt⟩ : Fin 256))

/-- The index maps over the grid: the feature tile and the output tile are the point's row tile, the weights' block is
    the whole matrix. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point t writes back is its row tile of the product of the arrays as the region finds them. -/
theorem flushed_eq (c : Dev nD) (t : Fin cfg1.N) :
    (dat1 (F := Ideal) V c).flushed 2 t
      = ((cfg1.win 2).blk t).view.read (Elt Ideal) (prod (V c main_v2) (V c main_v35)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x256) hz]
  obtain ⟨e0, e1, e2, e3, e4, e5⟩ := idx_facts t
  funext j
  obtain ⟨p, q, rfl⟩ : ∃ (p : Fin 5000) (q : Fin 256), j = ix2 p q := ⟨j 0, j 1, eq_ix2 j⟩
  refine (Pay.conv1_apply (iblk1 V c 0 t) (iblk1 V c 1 t) p q).trans ?_
  show _ = prod (V c main_v2) (V c main_v35) (((cfg1.win 2).blk t).view.emb (ix2 p q))
  refine Finset.sum_congr rfl fun k _ => ?_
  refine congrArg₂ (· * ·) ?_ ?_
  · show V c main_v2 (((cfg1.win 0).blk t).view.emb (ix2 p k)) = _
    refine congrArg _ (funext fun a => Fin.ext ?_)
    match a with
    | ⟨0, _⟩ =>
      show win1_0.index t (0 : Fin 2) * 5000 + 1 * p.val = win1_2.index t (0 : Fin 2) * 5000 + 1 * p.val
      omega
    | ⟨1, _⟩ =>
      show win1_0.index t (1 : Fin 2) * 256 + 1 * k.val = k.val
      omega
  · show V c main_v35 (((cfg1.win 1).blk t).view.emb (ix2 k q)) = _
    refine congrArg _ (funext fun a => Fin.ext ?_)
    match a with
    | ⟨0, _⟩ =>
      show win1_1.index t (0 : Fin 2) * 256 + 1 * k.val = k.val
      omega
    | ⟨1, _⟩ =>
      show win1_1.index t (1 : Fin 2) * 256 + 1 * q.val = win1_2.index t (1 : Fin 2) * 256 + 1 * q.val
      omega

/-- An index of the output array lies in point t's block iff each coordinate lies in the block's range on its axis. -/
theorem mem_blk (t : Fin cfg1.N) (i : S50000x256.Idx) :
    i ∈ ((cfg1.win 2).blk t).view.set ↔ ∀ a : Fin 2, win1_2.index t a * S5000x256.size a ≤ (i a).val
      ∧ (i a).val < win1_2.index t a * S5000x256.size a + S5000x256.size a := by
  show i ∈ ((View.whole main_v38).slice (win1_2.rect t)).set ↔ _
  rw [View.set_slice_whole, Rect.mem_set_unit]
  exact Iff.rfl

/-- Every index of the output array is written: row r by the point r / 5000. -/
theorem cover (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have ht : (i 0).val / 5000 < 10 := by omega
  obtain ⟨e0, e1, e2, e3, e4, e5⟩ := idx_facts ⟨(i 0).val / 5000, ht⟩
  have e4' : win1_2.index ⟨(i 0).val / 5000, ht⟩ (0 : Fin 2) = (i 0).val / 5000 := e4
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    omega
  | ⟨1, _⟩ =>
    show win1_2.index ⟨(i 0).val / 5000, ht⟩ (1 : Fin 2) * 256 ≤ (i 1).val
      ∧ (i 1).val < win1_2.index ⟨(i 0).val / 5000, ht⟩ (1 : Fin 2) * 256 + 256
    omega

/-- The output array after the region: the product of the feature array and the weight matrix as the region found
    them. -/
theorem final (c : Dev nD) :
    (dat1 (F := Ideal) V c).arrAt 2 cfg1.N = prod (V c main_v2) (V c main_v35) :=
  (dat1 (F := Ideal) V c).arrAt_eq_of_cover 2 (prod (V c main_v2) (V c main_v35)) (fun t _ => flushed_eq V c t) cover

end Cert.KernelIdeal.Conv1

end
-- ==== Proof.Conv2.lean ====
/-
  What layer kernel 2 leaves in its output array: the whole product.

  The grid has ten points; point t reads rows 5000·t … 5000·t + 4999 of the node features and the whole 256 × 256 weight
  matrix, and writes back the same rows of the output. Each written entry (r, q) is the sum over k of
  features (r, k) · weights (k, q), which does not depend on the tile the row sits in; the ten row tiles cover every
  row, so the array ends as that product of the arrays the region found.
-/
import proofs.«140012_j36867999269273_1_alg».proof.Proof.Gen.KernelIdeal.Frame
import proofs.«140012_j36867999269273_1_alg».proof.Proof.Pay
import Idealize.ShloMosaic.Lib.Pipeline.Value
import Idealize.ShloMosaic.Lib.ValueIdx

set_option maxRecDepth 16384

noncomputable section

namespace Cert.KernelIdeal.Conv2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The product of a 50000 × 256 array with a 256 × 256 one, entry by entry. -/
abbrev prod (h : S50000x256.Idx → EReal) (w : S256x256.Idx → EReal) : S50000x256.Idx → EReal :=
  fun i => ∑ k : Fin 256, h (ix2 (⟨(i 0).val, (i 0).isLt⟩ : Fin 50000) k) * w (ix2 k (⟨(i 1).val, (i 1).isLt⟩ : Fin 256))

/-- The index maps over the grid: the feature tile and the output tile are the point's row tile, the weights' block is
    the whole matrix. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is its row tile of the product of the arrays as the region finds them. -/
theorem flushed_eq (c : Dev nD) (t : Fin cfg2.N) :
    (dat2 (F := Ideal) V c).flushed 2 t
      = ((cfg2.win 2).blk t).view.read (Elt Ideal) (prod (V c main_v54) (V c main_v56)) := by
  show (cfg2.win 2).cut (grid2.coords t) ((dat2 V c).after 2 t) = _
  rw [after2_2]
  unfold out2_2
  rw [View.canon_unit_zero hz]
  simp only [View.ld_unit_zero (S := S5000x256) hz, View.ld_unit_zero (S := S256x256) hz]
  obtain ⟨e0, e1, e2, e3, e4, e5⟩ := idx_facts t
  funext j
  obtain ⟨p, q, rfl⟩ : ∃ (p : Fin 5000) (q : Fin 256), j = ix2 p q := ⟨j 0, j 1, eq_ix2 j⟩
  refine (Pay.conv2_apply (iblk2 V c 0 t) (iblk2 V c 1 t) p q).trans ?_
  show _ = prod (V c main_v54) (V c main_v56) (((cfg2.win 2).blk t).view.emb (ix2 p q))
  refine Finset.sum_congr rfl fun k _ => ?_
  refine congrArg₂ (· * ·) ?_ ?_
  · show V c main_v54 (((cfg2.win 0).blk t).view.emb (ix2 p k)) = _
    refine congrArg _ (funext fun a => Fin.ext ?_)
    match a with
    | ⟨0, _⟩ =>
      show win2_0.index t (0 : Fin 2) * 5000 + 1 * p.val = win2_2.index t (0 : Fin 2) * 5000 + 1 * p.val
      omega
    | ⟨1, _⟩ =>
      show win2_0.index t (1 : Fin 2) * 256 + 1 * k.val = k.val
      omega
  · show V c main_v56 (((cfg2.win 1).blk t).view.emb (ix2 k q)) = _
    refine congrArg _ (funext fun a => Fin.ext ?_)
    match a with
    | ⟨0, _⟩ =>
      show win2_1.index t (0 : Fin 2) * 256 + 1 * k.val = k.val
      omega
    | ⟨1, _⟩ =>
      show win2_1.index t (1 : Fin 2) * 256 + 1 * q.val = win2_2.index t (1 : Fin 2) * 256 + 1 * q.val
      omega

/-- An index of the output array lies in point t's block iff each coordinate lies in the block's range on its axis. -/
theorem mem_blk (t : Fin cfg2.N) (i : S50000x256.Idx) :
    i ∈ ((cfg2.win 2).blk t).view.set ↔ ∀ a : Fin 2, win2_2.index t a * S5000x256.size a ≤ (i a).val
      ∧ (i a).val < win2_2.index t a * S5000x256.size a + S5000x256.size a := by
  show i ∈ ((View.whole main_v59).slice (win2_2.rect t)).set ↔ _
  rw [View.set_slice_whole, Rect.mem_set_unit]
  exact Iff.rfl

/-- Every index of the output array is written: row r by the point r / 5000. -/
theorem cover (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have ht : (i 0).val / 5000 < 10 := by omega
  obtain ⟨e0, e1, e2, e3, e4, e5⟩ := idx_facts ⟨(i 0).val / 5000, ht⟩
  have e4' : win2_2.index ⟨(i 0).val / 5000, ht⟩ (0 : Fin 2) = (i 0).val / 5000 := e4
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    omega
  | ⟨1, _⟩ =>
    show win2_2.index ⟨(i 0).val / 5000, ht⟩ (1 : Fin 2) * 256 ≤ (i 1).val
      ∧ (i 1).val < win2_2.index ⟨(i 0).val / 5000, ht⟩ (1 : Fin 2) * 256 + 256
    omega

/-- The output array after the region: the product of the feature array and the weight matrix as the region found
    them. -/
theorem final (c : Dev nD) :
    (dat2 (F := Ideal) V c).arrAt 2 cfg2.N = prod (V c main_v54) (V c main_v56) :=
  (dat2 (F := Ideal) V c).arrAt_eq_of_cover 2 (prod (V c main_v54) (V c main_v56)) (fun t _ => flushed_eq V c t) cover

end Cert.KernelIdeal.Conv2

end
-- ==== Proof.Conv3.lean ====
/-
  What layer kernel 3 leaves in its output array: the whole product.

  The grid has ten points; point t reads rows 5000·t … 5000·t + 4999 of the node features and the whole 256 × 256 weight
  matrix, and writes back the same rows of the output. Each written entry (r, q) is the sum over k of
  features (r, k) · weights (k, q), which does not depend on the tile the row sits in; the ten row tiles cover every
  row, so the array ends as that product of the arrays the region found.
-/
import proofs.«140012_j36867999269273_1_alg».proof.Proof.Gen.KernelIdeal.Frame
import proofs.«140012_j36867999269273_1_alg».proof.Proof.Pay
import Idealize.ShloMosaic.Lib.Pipeline.Value
import Idealize.ShloMosaic.Lib.ValueIdx

set_option maxRecDepth 16384

noncomputable section

namespace Cert.KernelIdeal.Conv3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The product of a 50000 × 256 array with a 256 × 256 one, entry by entry. -/
abbrev prod (h : S50000x256.Idx → EReal) (w : S256x256.Idx → EReal) : S50000x256.Idx → EReal :=
  fun i => ∑ k : Fin 256, h (ix2 (⟨(i 0).val, (i 0).isLt⟩ : Fin 50000) k) * w (ix2 k (⟨(i 1).val, (i 1).isLt⟩ : Fin 256))

/-- The index maps over the grid: the feature tile and the output tile are the point's row tile, the weights' block is
    the whole matrix. -/
theorem idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point t writes back is its row tile of the product of the arrays as the region finds them. -/
theorem flushed_eq (c : Dev nD) (t : Fin cfg3.N) :
    (dat3 (F := Ideal) V c).flushed 2 t
      = ((cfg3.win 2).blk t).view.read (Elt Ideal) (prod (V c main_v75) (V c main_v77)) := by
  show (cfg3.win 2).cut (grid3.coords t) ((dat3 V c).after 2 t) = _
  rw [after3_2]
  unfold out3_2
  rw [View.canon_unit_zero hz]
  simp only [View.ld_unit_zero (S := S5000x256) hz, View.ld_unit_zero (S := S256x256) hz]
  obtain ⟨e0, e1, e2, e3, e4, e5⟩ := idx_facts t
  funext j
  obtain ⟨p, q, rfl⟩ : ∃ (p : Fin 5000) (q : Fin 256), j = ix2 p q := ⟨j 0, j 1, eq_ix2 j⟩
  refine (Pay.conv3_apply (iblk3 V c 0 t) (iblk3 V c 1 t) p q).trans ?_
  show _ = prod (V c main_v75) (V c main_v77) (((cfg3.win 2).blk t).view.emb (ix2 p q))
  refine Finset.sum_congr rfl fun k _ => ?_
  refine congrArg₂ (· * ·) ?_ ?_
  · show V c main_v75 (((cfg3.win 0).blk t).view.emb (ix2 p k)) = _
    refine congrArg _ (funext fun a => Fin.ext ?_)
    match a with
    | ⟨0, _⟩ =>
      show win3_0.index t (0 : Fin 2) * 5000 + 1 * p.val = win3_2.index t (0 : Fin 2) * 5000 + 1 * p.val
      omega
    | ⟨1, _⟩ =>
      show win3_0.index t (1 : Fin 2) * 256 + 1 * k.val = k.val
      omega
  · show V c main_v77 (((cfg3.win 1).blk t).view.emb (ix2 k q)) = _
    refine congrArg _ (funext fun a => Fin.ext ?_)
    match a with
    | ⟨0, _⟩ =>
      show win3_1.index t (0 : Fin 2) * 256 + 1 * k.val = k.val
      omega
    | ⟨1, _⟩ =>
      show win3_1.index t (1 : Fin 2) * 256 + 1 * q.val = win3_2.index t (1 : Fin 2) * 256 + 1 * q.val
      omega

/-- An index of the output array lies in point t's block iff each coordinate lies in the block's range on its axis. -/
theorem mem_blk (t : Fin cfg3.N) (i : S50000x256.Idx) :
    i ∈ ((cfg3.win 2).blk t).view.set ↔ ∀ a : Fin 2, win3_2.index t a * S5000x256.size a ≤ (i a).val
      ∧ (i a).val < win3_2.index t a * S5000x256.size a + S5000x256.size a := by
  show i ∈ ((View.whole main_v80).slice (win3_2.rect t)).set ↔ _
  rw [View.set_slice_whole, Rect.mem_set_unit]
  exact Iff.rfl

/-- Every index of the output array is written: row r by the point r / 5000. -/
theorem cover (i : S50000x256.Idx) :
    ∃ t : Fin cfg3.N, (cfg3.win 2).flush t = true ∧ i ∈ ((cfg3.win 2).blk t).view.set := by
  have hi0 : (i 0).val < 50000 := (i 0).isLt
  have hi1 : (i 1).val < 256 := (i 1).isLt
  have ht : (i 0).val / 5000 < 10 := by omega
  obtain ⟨e0, e1, e2, e3, e4, e5⟩ := idx_facts ⟨(i 0).val / 5000, ht⟩
  have e4' : win3_2.index ⟨(i 0).val / 5000, ht⟩ (0 : Fin 2) = (i 0).val / 5000 := e4
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    omega
  | ⟨1, _⟩ =>
    show win3_2.index ⟨(i 0).val / 5000, ht⟩ (1 : Fin 2) * 256 ≤ (i 1).val
      ∧ (i 1).val < win3_2.index ⟨(i 0).val / 5000, ht⟩ (1 : Fin 2) * 256 + 256
    omega

/-- The output array after the region: the product of the feature array and the weight matrix as the region found
    them. -/
theorem final (c : Dev nD) :
    (dat3 (F := Ideal) V c).arrAt 2 cfg3.N = prod (V c main_v75) (V c main_v77) :=
  (dat3 (F := Ideal) V c).arrAt_eq_of_cover 2 (prod (V c main_v75) (V c main_v77)) (fun t _ => flushed_eq V c t) cover

end Cert.KernelIdeal.Conv3

end
-- ==== Proof.KWalk.lean ====
/-
  The kernel program's buffer contents at the regions' exits.

  A region's exit contents are its entry contents with the region's arrays replaced by what the pipeline leaves. So at
  a region's exit its output array holds the region's function of the entry contents (the encoder for the first region,
  the row-tile product for the three layer regions), and every buffer that is not one of the region's arrays holds what
  it held at entry.
-/
import proofs.«140012_j36867999269273_1_alg».proof.Proof.Gen.KernelIdeal.Frame
import proofs.«140012_j36867999269273_1_alg».proof.Proof.Enc
import proofs.«140012_j36867999269273_1_alg».proof.Proof.Conv1
import proofs.«140012_j36867999269273_1_alg».proof.Proof.Conv2
import proofs.«140012_j36867999269273_1_alg».proof.Proof.Conv3

set_option maxRecDepth 16384

noncomputable section

namespace Cert.KernelIdeal.KWalk

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- A buffer that is not an array of the first region holds at its exit what it held at its entry. -/
theorem W2_ne' (b : Ref sig .tc) (hb : ∀ w, Pipeline.arrRef spec0 w ≠ b) :
    W2 m ρ c (no_index (Proc.devRef .tc b)) = W1 m ρ c (Proc.devRef .tc b) := W2_of_ne m ρ c b hb
/-- The same for the second region. -/
theorem W6_ne' (b : Ref sig .tc) (hb : ∀ w, Pipeline.arrRef spec1 w ≠ b) :
    W6 m ρ c (no_index (Proc.devRef .tc b)) = W5 m ρ c (Proc.devRef .tc b) := W6_of_ne m ρ c b hb
/-- The same for the third region. -/
theorem W10_ne' (b : Ref sig .tc) (hb : ∀ w, Pipeline.arrRef spec2 w ≠ b) :
    W10 m ρ c (no_index (Proc.devRef .tc b)) = W9 m ρ c (Proc.devRef .tc b) := W10_of_ne m ρ c b hb
/-- The same for the fourth region. -/
theorem W14_ne' (b : Ref sig .tc) (hb : ∀ w, Pipeline.arrRef spec3 w ≠ b) :
    W14 m ρ c (no_index (Proc.devRef .tc b)) = W13 m ρ c (Proc.devRef .tc b) := W14_of_ne m ρ c b hb

/-- The encoder region's output array at its exit: the encoder of the entry contents. -/
theorem W2_out : W2 m ρ c (Proc.devRef .tc main_v2)
    = Enc.enc (W1 m ρ c (Proc.devRef .tc main_arg0)) (W1 m ρ c (Proc.devRef .tc main_arg2)) (W1 m ρ c (Proc.devRef .tc main_v0))
        (W1 m ρ c (Proc.devRef .tc main_arg4)) (W1 m ρ c (Proc.devRef .tc main_v1)) :=
  (W2_arr m ρ c 5).trans (Enc.final (V1 m ρ) c)

/-- The first layer region's output array at its exit: the product of the entry contents. -/
theorem W6_out : W6 m ρ c (Proc.devRef .tc main_v38)
    = Conv1.prod (W5 m ρ c (Proc.devRef .tc main_v2)) (W5 m ρ c (Proc.devRef .tc main_v35)) :=
  (W6_arr m ρ c 2).trans (Conv1.final (V5 m ρ) c)

/-- The second layer region's output array at its exit. -/
theorem W10_out : W10 m ρ c (Proc.devRef .tc main_v59)
    = Conv2.prod (W9 m ρ c (Proc.devRef .tc main_v54)) (W9 m ρ c (Proc.devRef .tc main_v56)) :=
  (W10_arr m ρ c 2).trans (Conv2.final (V9 m ρ) c)

/-- The third layer region's output array at its exit. -/
theorem W14_out : W14 m ρ c (Proc.devRef .tc main_v80)
    = Conv3.prod (W13 m ρ c (Proc.devRef .tc main_v75)) (W13 m ρ c (Proc.devRef .tc main_v77)) :=
  (W14_arr m ρ c 2).trans (Conv3.final (V13 m ρ) c)

end Cert.KernelIdeal.KWalk

end
-- ==== Proof.LibBcast.lean ====
/-
  Host broadcasts and a row reshape, read at an index.

  A vector of length `a` broadcast first to an `a × 1` column and then across `b` columns reads, at `(i, c)`, the vector
  at `i`; a vector of length `b` broadcast first to a `1 × b` row and then down `a` rows reads, at `(i, c)`, the vector
  at `c`; a scalar broadcast to any shape reads the scalar everywhere; and a `1 × n` array reshaped to length `n`
  reads, at `j`, the array at `(0, j)`.  A broadcast reads its operand at the coordinates its axes are sent to, and at
  `0` on an operand axis of extent one; when the extent of a broadcast axis happens to be one as well, the coordinate
  read is below one, hence `0`, and the two descriptions agree.  A reshape keeps the row-major position.
-/
import Idealize.ShloMosaic.Lib.Pipeline.Value
import Idealize.ShloMosaic.Lib.ValueIdx

namespace Cert.LibBcast

open Idealize.ShloMosaic Idealize.ShloMosaic.ValueIdx

/-- A vector broadcast to a column and then across `b` columns, read at `(i, c)`, is the vector at `i`. -/
theorem rows_apply {α : Type} {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![a, 1]⟩ ![0] h1 v) (ix2 i c) = v (ix1 i) := by
  have hi : i.val < a := i.isLt
  have e2 := broadcastInDim_apply ![0, 1] h2 (broadcastInDim ⟨2, ![a, 1]⟩ ![0] h1 v) (ix2 i c) (ix2 i (0 : Fin 1)) (by
    intro d
    match d with
    | ⟨0, _⟩ =>
      show i.val = if a = 1 then 0 else i.val
      split
      · omega
      · rfl
    | ⟨1, _⟩ =>
      show 0 = if 1 = 1 then 0 else c.val
      exact (if_pos rfl).symm)
  have e1 := broadcastInDim_apply ![0] h1 v (ix2 i (0 : Fin 1)) (ix1 i) (by
    intro d
    match d with
    | ⟨0, _⟩ =>
      show i.val = if a = 1 then 0 else i.val
      split
      · omega
      · rfl)
  exact e2.trans e1

/-- A vector broadcast to a row and then down `a` rows, read at `(i, c)`, is the vector at `c`. -/
theorem cols_apply {α : Type} {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![1, b]⟩ ![1] h1 v) (ix2 i c) = v (ix1 c) := by
  have hc : c.val < b := c.isLt
  have e2 := broadcastInDim_apply ![0, 1] h2 (broadcastInDim ⟨2, ![1, b]⟩ ![1] h1 v) (ix2 i c) (ix2 (0 : Fin 1) c) (by
    intro d
    match d with
    | ⟨0, _⟩ =>
      show 0 = if 1 = 1 then 0 else i.val
      exact (if_pos rfl).symm
    | ⟨1, _⟩ =>
      show c.val = if b = 1 then 0 else c.val
      split
      · omega
      · rfl)
  have e1 := broadcastInDim_apply ![1] h1 v (ix2 (0 : Fin 1) c) (ix1 c) (by
    intro d
    match d with
    | ⟨0, _⟩ =>
      show c.val = if b = 1 then 0 else c.val
      split
      · omega
      · rfl)
  exact e2.trans e1

/-- A scalar broadcast to any shape reads the scalar at every index. -/
theorem scalar_apply {α : Type} (T : Shape) (v : (⟨0, ![]⟩ : Shape).Idx → α)
    (h : (⟨0, ![]⟩ : Shape).BroadcastsInDim T (![] : Fin 0 → Fin T.rank)) (i : T.Idx) :
    broadcastInDim T ![] h v i = v ix0 :=
  broadcastInDim_apply ![] h v i ix0 fun d => d.elim0

/-- A `1 × n` array reshaped to length `n` reads, at `j`, the array at `(0, j)`: the same row-major position. -/
theorem row_reshape_apply {α : Type} {n : ℕ} (x : (⟨2, ![1, n]⟩ : Shape).Idx → α)
    (h : (⟨2, ![1, n]⟩ : Shape).ShapeCasts ⟨1, ![n]⟩) (j : Fin n) :
    shapeCast ⟨1, ![n]⟩ x h (ix1 j) = x (ix2 (0 : Fin 1) j) :=
  shapeCast_apply x h (ix1 j) (ix2 (0 : Fin 1) j) (by
    rw [Shape.rowMajor_val_two, Shape.rowMajor_val_one]
    show 0 * n + j.val = j.val
    omega)

end Cert.LibBcast
-- ==== Proof.RefForm.lean ====
/-
  The regions' functions in the reference's spelling.

  The row-tile product the three layer regions leave is the host's `dot_general` of the same two arrays: both are, entry
  by entry, the sum over k of h (r, k) · w (k, q). The encoder region's function is the reference's encoder: the host's
  two `dot_general`s, each followed by its bias vector broadcast to a row and down the rows, with the maximum against the
  zero splat between them — where the kernel reads the bias as a 1 × 256 row recast from the vector, the reference
  broadcasts the vector; both read the vector at the column.
-/
import proofs.«140012_j36867999269273_1_alg».proof.KernelIdeal
import proofs.«140012_j36867999269273_1_alg».proof.ReferenceIdeal
import proofs.«140012_j36867999269273_1_alg».proof.Proof.Gen.KernelIdeal
import proofs.«140012_j36867999269273_1_alg».proof.Proof.Gen.ReferenceIdeal
import proofs.«140012_j36867999269273_1_alg».proof.Proof.LibDot
import proofs.«140012_j36867999269273_1_alg».proof.Proof.LibBcast
import proofs.«140012_j36867999269273_1_alg».proof.Proof.Enc
import Idealize.ShloMosaic.Lib.Pipeline.Value
import Idealize.ShloMosaic.Lib.ValueIdx
import Idealize.ShloMosaic.PureOps.Ideal.Laws

noncomputable section

namespace Cert.RefForm

open Idealize.ShloMosaic Idealize.ShloMosaic.ValueIdx

/-- The entrywise product sum of a 50000 × 256 array with a 256 × 256 one is the host's `dot_general` of them. -/
theorem prod_eq_dot (h : Cert.KernelIdeal.S50000x256.Idx → EReal) (w : Cert.KernelIdeal.S256x256.Idx → EReal) :
    (fun i : Cert.KernelIdeal.S50000x256.Idx => ∑ k : Fin 256, h (ix2 (⟨(i 0).val, (i 0).isLt⟩ : Fin 50000) k) * w (ix2 k (⟨(i 1).val, (i 1).isLt⟩ : Fin 256)))
      = Host.dotGeneral (F := Ideal) (φ₁ := .f32) (φ₂ := .f32) Cert.ReferenceIdeal.dot_S50000x256_S256x256_S50000x256_1_0_0_1_n_n none h w := by
  funext i
  obtain ⟨p, q, rfl⟩ : ∃ (p : Fin 50000) (q : Fin 256), i = ix2 p q := ⟨i 0, i 1, eq_ix2 i⟩
  exact (LibDot.dotGeneral_plain_apply Cert.ReferenceIdeal.dot_S50000x256_S256x256_S50000x256_1_0_0_1_n_n rfl rfl rfl rfl rfl rfl none _ h w (ix2 p q)).symm

/-- A length-256 vector recast as a 1 × 256 row reads the vector at the column. -/
theorem vecCast_apply (b : Cert.KernelIdeal.S256.Idx → EReal) (k : Fin 256) :
    shapeCast Cert.KernelIdeal.S1x256 b Cert.KernelIdeal.Facts₀.shapeCasts_S256_S1x256 (ix2 0 k) = b (ix1 k) :=
  shapeCast_apply b Cert.KernelIdeal.Facts₀.shapeCasts_S256_S1x256 (ix2 (0 : Fin 1) k) (ix1 k) (by
    rw [Shape.rowMajor_val_two, Shape.rowMajor_val_one]
    show k.val = 0 * 256 + k.val
    omega)

/-- The encoder region's function, with its bias rows recast from the bias vectors, is the reference's encoder. -/
theorem enc_eq (x : Cert.KernelIdeal.S50000x64.Idx → EReal) (w1 : Cert.KernelIdeal.S64x256.Idx → EReal) (b1 : Cert.KernelIdeal.S256.Idx → EReal)
    (w2 : Cert.KernelIdeal.S256x256.Idx → EReal) (b2 : Cert.KernelIdeal.S256.Idx → EReal) :
    Cert.KernelIdeal.Enc.enc x w1 (shapeCast Cert.KernelIdeal.S1x256 b1 Cert.KernelIdeal.Facts₀.shapeCasts_S256_S1x256) w2
        (shapeCast Cert.KernelIdeal.S1x256 b2 Cert.KernelIdeal.Facts₀.shapeCasts_S256_S1x256)
      = (addf (F := Ideal) (φ := .f32)
      (Host.dotGeneral (F := Ideal) (φ₁ := .f32) (φ₂ := .f32) Cert.ReferenceIdeal.dot_S50000x256_S256x256_S50000x256_1_0_0_1_n_n none
        (maximumf (F := Ideal) (φ := .f32)
          (addf (F := Ideal) (φ := .f32) (Host.dotGeneral (F := Ideal) (φ₁ := .f32) (φ₂ := .f32) Cert.ReferenceIdeal.dot_S50000x64_S64x256_S50000x256_1_0_0_1_n_n none x w1)
            (broadcastInDim Cert.ReferenceIdeal.S50000x256 ![0, 1] Cert.ReferenceIdeal.Facts₀.bcast_S1x256_S50000x256_0_1
              (broadcastInDim Cert.ReferenceIdeal.S1x256 ![1] Cert.ReferenceIdeal.Facts₀.bcast_S256_S1x256_1 b1)))
          (broadcastInDim Cert.ReferenceIdeal.S50000x256 ![] Cert.ReferenceIdeal.Facts₀.bcast_S_S50000x256 (constant Cert.ReferenceIdeal.S_ .f32 0x00000000#32)))
        w2)
      (broadcastInDim Cert.ReferenceIdeal.S50000x256 ![0, 1] Cert.ReferenceIdeal.Facts₀.bcast_S1x256_S50000x256_0_1
        (broadcastInDim Cert.ReferenceIdeal.S1x256 ![1] Cert.ReferenceIdeal.Facts₀.bcast_S256_S1x256_1 b2))) := by
  funext i
  obtain ⟨p, q, rfl⟩ : ∃ (p : Fin 50000) (q : Fin 256), i = ix2 p q := ⟨i 0, i 1, eq_ix2 i⟩
  refine Eq.symm ?_
  refine (congrArg₂ (· + ·)
    (LibDot.dotGeneral_plain_apply Cert.ReferenceIdeal.dot_S50000x256_S256x256_S50000x256_1_0_0_1_n_n rfl rfl rfl rfl rfl rfl none _ _ w2 (ix2 p q))
    (LibBcast.cols_apply b2 _ _ p q)).trans ?_
  refine congrArg₂ (· + ·) (Finset.sum_congr rfl fun k _ => congrArg (· * w2 (ix2 k q)) ?_) (vecCast_apply b2 q).symm
  refine congrArg₂ max (congrArg₂ (· + ·) ?_ ?_) rfl
  · exact LibDot.dotGeneral_plain_apply Cert.ReferenceIdeal.dot_S50000x64_S64x256_S50000x256_1_0_0_1_n_n rfl rfl rfl rfl rfl rfl none _ x w1 (ix2 p k)
  · exact (LibBcast.cols_apply b1 _ _ p k).trans (vecCast_apply b1 k).symm

end Cert.RefForm

end
-- ==== Proof.Decode.lean ====
/-
  The edge scores: one number for every edge.

  The reference gives every node the same embedding row v (a 1 × 256 row broadcast down 50000 rows), gathers the rows
  of an edge's two endpoints and sums their product along the row. Whatever row a start index selects — a gather
  clamps it into the array — the gathered row is v, so every edge's sum is Σ_k v(0,k) · v(0,k), and every edge's score
  is the logistic function 1 / (1 + exp (−s)) of that one sum s. The kernel program computes s once from the row
  itself, applies the same function, and broadcasts the scalar to all edges.
-/
import proofs.«140012_j36867999269273_1_alg».proof.KernelIdeal
import proofs.«140012_j36867999269273_1_alg».proof.ReferenceIdeal
import proofs.«140012_j36867999269273_1_alg».proof.Proof.Gen.KernelIdeal
import proofs.«140012_j36867999269273_1_alg».proof.Proof.Gen.ReferenceIdeal
import Idealize.ShloMosaic.Lib.Pipeline.Value
import Idealize.ShloMosaic.Lib.ValueIdx
import Idealize.ShloMosaic.PureOps.Ideal.Laws

noncomputable section

namespace Cert.Decode

open Idealize.ShloMosaic Idealize.ShloMosaic.ValueIdx

/-- A row gathered from the row broadcast is the row: column k of whichever row the start index names is v (0, k). -/
theorem gather_bcast_apply (v : Cert.ReferenceIdeal.S1x256.Idx → EReal) (idx : IVec Cert.ReferenceIdeal.S800000x1 32)
    (e : Fin 800000) (k : Fin 256) :
    Host.gather Cert.ReferenceIdeal.gather_S50000x256_S800000x1_S800000x256_1_0_n_n_0_1_1256
      (broadcastInDim Cert.ReferenceIdeal.S50000x256 ![0, 1] Cert.ReferenceIdeal.Facts₀.bcast_S1x256_S50000x256_0_1 v) idx (ix2 e k)
      = v (ix2 0 k) := by
  unfold Host.gather
  refine broadcastInDim_apply _ _ v _ (ix2 0 k) (fun a => ?_)
  match a with
  | ⟨0, _⟩ => rfl
  | ⟨1, _⟩ =>
    show k.val = if (256 : Nat) = 1 then 0 else _
    rw [if_neg (by decide)]
    show k.val = GatherDims.start _ (ix2 e k) idx 1 + GatherDims.batchCoord _ (ix2 e k) 1 + GatherDims.offCoord _ (ix2 e k) 1
    rw [GatherDims.batchCoord_eq_zero _ _ _ (by decide)]
    unfold GatherDims.start GatherDims.offCoord
    rw [dif_neg (by decide), dif_pos (by decide)]
    simp only [Nat.zero_add]
    generalize hX : (GatherDims.offsetDims _)[List.idxOf (1 : Fin 2) _]'_ = X
    have hX1 : X = (1 : Fin 2) := by rw [← hX]; decide
    rw [hX1]

/-- The host's sum along the rows of an 800000 × 256 array, at row e: the initial value plus the sum over the columns. -/
theorem rowSum_apply (x : Cert.ReferenceIdeal.S800000x256.Idx → EReal) (e : Fin 800000) :
    Host.reduceAdd (F := Ideal) (φ := .f32) x (constant Cert.ReferenceIdeal.S_ .f32 0x00000000#32) Cert.ReferenceIdeal.Facts₀.reducesTo_S800000x256_S800000_d1 Cert.ReferenceIdeal.Facts₀.h_S_ (ix1 e)
      = Ideal.ofBits .f32 0x00000000#32 + ∑ k : Fin 256, x (ix2 e k) := by
  simp only [Host.reduceAdd, Ideal.hostReduceAdd_def]
  rw [Ideal.hostReduceAdd_single Cert.ReferenceIdeal.Facts₀.reducesTo_S800000x256_S800000_d1 (by decide)]
  refine congrArg₂ (· + ·) rfl (Finset.sum_congr rfl fun k _ => ?_)
  exact congrArg x (funext fun a => Fin.ext (by match a with | ⟨0, _⟩ => rfl | ⟨1, _⟩ => rfl))

/-- A length-n vector's indices are its coordinates. -/
def idxEquiv1 {n : Nat} : (⟨1, ![n]⟩ : Shape).Idx ≃ Fin n where
  toFun j := j 0
  invFun k := ix1 k
  left_inv j := (eq_ix1 j).symm
  right_inv _ := rfl

/-- The host's sum of a length-256 vector into a scalar: the initial value plus the sum over its entries. -/
theorem vecSum_apply (x : Cert.KernelIdeal.S256.Idx → EReal) :
    Host.reduceAdd (F := Ideal) (φ := .f32) x (constant Cert.KernelIdeal.S_ .f32 0x00000000#32) Cert.KernelIdeal.Facts₀.reducesTo_S256_S_d0 Cert.KernelIdeal.Facts₀.h_S_ ix0
      = Ideal.ofBits .f32 0x00000000#32 + ∑ k : Fin 256, x (ix1 k) := by
  simp only [Host.reduceAdd, Ideal.hostReduceAdd_def]
  rw [Ideal.hostReduceAdd_total Cert.KernelIdeal.Facts₀.reducesTo_S256_S_d0 (fun b => b.elim0)]
  refine congrArg₂ (· + ·) rfl ?_
  exact (Equiv.sum_comp (idxEquiv1 (n := 256)).symm x).symm

/-- A 1 × 256 row recast as a length-256 vector reads the row at the column. -/
theorem rowCast_apply (v : Cert.KernelIdeal.S1x256.Idx → EReal) (k : Fin 256) :
    shapeCast Cert.KernelIdeal.S256 v Cert.KernelIdeal.Facts₀.shapeCasts_S1x256_S256 (ix1 k) = v (ix2 0 k) :=
  shapeCast_apply v Cert.KernelIdeal.Facts₀.shapeCasts_S1x256_S256 (ix1 k) (ix2 (0 : Fin 1) k) (by
    rw [Shape.rowMajor_val_two, Shape.rowMajor_val_one]
    show 0 * 256 + k.val = k.val
    omega)

/-- The logistic function of a scalar as both programs spell it: 1 / (1 + exp (−s)). -/
def logi (s : EReal) : EReal :=
  FloatOps.hostDivf (F := Ideal) (φ := .f32) (FloatOps.ofBits (F := Ideal) .f32 0x3F800000#32)
    (FloatOps.addf (F := Ideal) (φ := .f32) (FloatOps.ofBits (F := Ideal) .f32 0x3F800000#32) (FloatOps.hostUnary (F := Ideal) .exp (φ := .f32) (FloatOps.hostNegf (F := Ideal) (φ := .f32) s)))

/-- THE EDGE SCORES: the reference's per-edge logistic of the gathered rows' product sum is the kernel program's one
    logistic of Σ_k v(0,k)², broadcast to every edge. -/
theorem edge_scores (v : Cert.ReferenceIdeal.S1x256.Idx → EReal) (i1 i2 : IVec Cert.ReferenceIdeal.S800000x1 32) :
    Host.divf (F := Ideal) (φ := .f32) (broadcastInDim Cert.ReferenceIdeal.S800000 ![] Cert.ReferenceIdeal.Facts₀.bcast_S_S800000 (constant Cert.ReferenceIdeal.S_ .f32 0x3F800000#32))
      (addf (broadcastInDim Cert.ReferenceIdeal.S800000 ![] Cert.ReferenceIdeal.Facts₀.bcast_S_S800000 (constant Cert.ReferenceIdeal.S_ .f32 0x3F800000#32))
        (Host.exp (Host.negf (Host.reduceAdd (mulf (Host.gather Cert.ReferenceIdeal.gather_S50000x256_S800000x1_S800000x256_1_0_n_n_0_1_1256
      (broadcastInDim Cert.ReferenceIdeal.S50000x256 ![0, 1] Cert.ReferenceIdeal.Facts₀.bcast_S1x256_S50000x256_0_1 v) i1) (Host.gather Cert.ReferenceIdeal.gather_S50000x256_S800000x1_S800000x256_1_0_n_n_0_1_1256
      (broadcastInDim Cert.ReferenceIdeal.S50000x256 ![0, 1] Cert.ReferenceIdeal.Facts₀.bcast_S1x256_S50000x256_0_1 v) i2))
          (constant Cert.ReferenceIdeal.S_ .f32 0x00000000#32) Cert.ReferenceIdeal.Facts₀.reducesTo_S800000x256_S800000_d1 Cert.ReferenceIdeal.Facts₀.h_S_))))
    = broadcastInDim Cert.KernelIdeal.S800000 ![] Cert.KernelIdeal.Facts₀.bcast_S_S800000
        (Host.divf (constant Cert.KernelIdeal.S_ .f32 0x3F800000#32) (addf (constant Cert.KernelIdeal.S_ .f32 0x3F800000#32)
          (Host.exp (Host.negf (Host.reduceAdd
            (mulf (shapeCast Cert.KernelIdeal.S256 v Cert.KernelIdeal.Facts₀.shapeCasts_S1x256_S256) (shapeCast Cert.KernelIdeal.S256 v Cert.KernelIdeal.Facts₀.shapeCasts_S1x256_S256))
            (constant Cert.KernelIdeal.S_ .f32 0x00000000#32) Cert.KernelIdeal.Facts₀.reducesTo_S256_S_d0 Cert.KernelIdeal.Facts₀.h_S_))))) := by
  funext e
  obtain ⟨e0, rfl⟩ : ∃ e0 : Fin 800000, e = ix1 e0 := ⟨e 0, eq_ix1 e⟩
  have hs : Host.reduceAdd (F := Ideal) (φ := .f32) (mulf (Host.gather Cert.ReferenceIdeal.gather_S50000x256_S800000x1_S800000x256_1_0_n_n_0_1_1256
      (broadcastInDim Cert.ReferenceIdeal.S50000x256 ![0, 1] Cert.ReferenceIdeal.Facts₀.bcast_S1x256_S50000x256_0_1 v) i1) (Host.gather Cert.ReferenceIdeal.gather_S50000x256_S800000x1_S800000x256_1_0_n_n_0_1_1256
      (broadcastInDim Cert.ReferenceIdeal.S50000x256 ![0, 1] Cert.ReferenceIdeal.Facts₀.bcast_S1x256_S50000x256_0_1 v) i2))
        (constant Cert.ReferenceIdeal.S_ .f32 0x00000000#32) Cert.ReferenceIdeal.Facts₀.reducesTo_S800000x256_S800000_d1 Cert.ReferenceIdeal.Facts₀.h_S_ (ix1 e0)
      = Host.reduceAdd (F := Ideal) (φ := .f32)
          (mulf (shapeCast Cert.KernelIdeal.S256 v Cert.KernelIdeal.Facts₀.shapeCasts_S1x256_S256) (shapeCast Cert.KernelIdeal.S256 v Cert.KernelIdeal.Facts₀.shapeCasts_S1x256_S256))
          (constant Cert.KernelIdeal.S_ .f32 0x00000000#32) Cert.KernelIdeal.Facts₀.reducesTo_S256_S_d0 Cert.KernelIdeal.Facts₀.h_S_ ix0 := by
    rw [rowSum_apply, vecSum_apply]
    refine congrArg₂ (· + ·) rfl (Finset.sum_congr rfl fun k _ => ?_)
    show (Host.gather Cert.ReferenceIdeal.gather_S50000x256_S800000x1_S800000x256_1_0_n_n_0_1_1256
      (broadcastInDim Cert.ReferenceIdeal.S50000x256 ![0, 1] Cert.ReferenceIdeal.Facts₀.bcast_S1x256_S50000x256_0_1 v) i1) (ix2 e0 k) * (Host.gather Cert.ReferenceIdeal.gather_S50000x256_S800000x1_S800000x256_1_0_n_n_0_1_1256
      (broadcastInDim Cert.ReferenceIdeal.S50000x256 ![0, 1] Cert.ReferenceIdeal.Facts₀.bcast_S1x256_S50000x256_0_1 v) i2) (ix2 e0 k) = shapeCast Cert.KernelIdeal.S256 v _ (ix1 k) * shapeCast Cert.KernelIdeal.S256 v _ (ix1 k)
    rw [gather_bcast_apply, gather_bcast_apply, rowCast_apply]
  have hL : ∀ (S : Cert.ReferenceIdeal.S800000.Idx → EReal) (j : Cert.ReferenceIdeal.S800000.Idx),
      Host.divf (F := Ideal) (φ := .f32) (broadcastInDim Cert.ReferenceIdeal.S800000 ![] Cert.ReferenceIdeal.Facts₀.bcast_S_S800000 (constant Cert.ReferenceIdeal.S_ .f32 0x3F800000#32))
        (addf (broadcastInDim Cert.ReferenceIdeal.S800000 ![] Cert.ReferenceIdeal.Facts₀.bcast_S_S800000 (constant Cert.ReferenceIdeal.S_ .f32 0x3F800000#32))
          (Host.exp (Host.negf S))) j = logi (S j) := fun S j => rfl
  rw [hL, hs]
  refine Eq.trans ?_ (broadcastInDim_apply ![] Cert.KernelIdeal.Facts₀.bcast_S_S800000 _ (ix1 e0) ix0 fun d => d.elim0).symm
  rfl

end Cert.Decode

end
-- ==== Proof.LibConcat.lean ====
/-
  A concatenation of two pieces with the pieces as arguments.

  `concatenate` takes its operands as a list of (shape, contents) pairs. `concat2` is the two-piece concatenation with
  the two contents as plain arguments — the same function, so that an equation between pieces is an equation between
  concatenations by congruence — and `concat2_fold` says a two-piece `concatenate` is it.
-/
import Idealize.ShloMosaic.PureOps.ShapeOps

namespace Cert.LibConcat

open Idealize.ShloMosaic

/-- The concatenation of `a` and `b` along axis `ax` of the result shape. -/
def concat2 {α : Type} (t : Shape) (ax : Fin t.rank) {s1 s2 : Shape} (a : s1.Idx → α) (b : s2.Idx → α)
    (h : Shape.Concatenates [s1, s2] t ax) : t.Idx → α :=
  concatenate t ax [⟨s1, a⟩, ⟨s2, b⟩] h

/-- A two-piece `concatenate` is `concat2` of its pieces. -/
theorem concat2_fold {α : Type} (t : Shape) (ax : Fin t.rank) {s1 s2 : Shape} (a : s1.Idx → α) (b : s2.Idx → α)
    (h : Shape.Concatenates [s1, s2] t ax) :
    concatenate t ax [⟨s1, a⟩, ⟨s2, b⟩] h = concat2 t ax a b h := rfl

end Cert.LibConcat
-- ==== Proof.FinalBase.lean ====
/-
  Reading both programs' buffers back through their host operations, and the regions' outputs in the reference's spelling.

  Both programs are straight lines of host operations; the kernel program has four pipelined regions in place of the
  reference's five matrix products. Reading a buffer back through the operations, one at a time, writes it as a composed
  term of the buffers the operations read. On the kernel side the walk stops at each region's output array, which holds
  the region's function of the region's entry contents: in the reference's spelling a `dot_general` of the two input
  arrays for a layer region, and for the encoder region the reference's encoder of the launch contents.
-/
import proofs.«140012_j36867999269273_1_alg».proof.Proof.Gen.KernelIdeal.Frame
import proofs.«140012_j36867999269273_1_alg».proof.Proof.KWalk
import proofs.«140012_j36867999269273_1_alg».proof.Proof.RunP
import proofs.«140012_j36867999269273_1_alg».proof.Proof.RefForm
import proofs.«140012_j36867999269273_1_alg».proof.Proof.Decode
import proofs.«140012_j36867999269273_1_alg».proof.Proof.LibConcat
import Idealize.ShloMosaic.Lib.StableHlo.Run

set_option maxRecDepth 16384

noncomputable section

namespace Cert.Final

open Cert.KernelIdeal Cert.KernelIdeal.Gen Cert.KernelIdeal.KWalk
open Idealize.ShloMosaic Idealize.ShloMosaic.TcCoe Idealize.SL.Sem Idealize.ShloMosaic.StableHlo

variable (m : (ℓ : Loc nD τ sig) → Buf (Elt Ideal) ℓ) (ρ : Dev nD → PrngReg)
variable (m' : (ℓ : Loc ReferenceIdeal.nD ReferenceIdeal.τ ReferenceIdeal.sig) → Buf (Elt Ideal) ℓ) (c : Dev nD)

/-- Read a buffer back through the host operations of both programs, one operation at a time: each operation's result
    at its own buffer is its function of its operands' contents, at any other buffer what was there; a region's exit
    leaves every buffer but its arrays as at its entry; a two-piece concatenation is opened so that its pieces are read too. -/
macro "walk" : tactic => `(tactic| simp (disch := decide) only [W1, W3, W4, W5, W7, W8, W9, W11, W12, W13, W15, W16, W17, W18, W19, W20, W21,
  hostOps0, hostOps1, hostOps1_1, hostOps1_2, hostOps2, hostOps2_1, hostOps2_2, hostOps3, hostOps3_1, hostOps3_2,
  hostOps4, hostOps4_1, hostOps4_2, hostOps4_3, hostOps4_4, hostOps4_5, hostOps4_6, ReferenceIdeal.ValueP.ops,
  ↓LibConcat.concat2_fold, after_cons, after_nil,
  nullary_result', unary_result', binary_result', ternary_result', quaternary_result', reshape_result', nary4_result', nary_result',
  unaryIndexed_result', binaryIndexed_result',
  nullary_result_ne', unary_result_ne', binary_result_ne', ternary_result_ne', quaternary_result_ne', reshape_result_ne',
  nary_result_ne', unaryIndexed_result_ne', binaryIndexed_result_ne',
  W2_ne', W6_ne', W10_ne', W14_ne'])

/-- The first layer region's output at its exit, as the host's product of its entry contents. -/
theorem W6_dot : W6 m ρ c (Proc.devRef .tc main_v38)
    = Host.dotGeneral (F := Ideal) (φ₁ := .f32) (φ₂ := .f32) Cert.ReferenceIdeal.dot_S50000x256_S256x256_S50000x256_1_0_0_1_n_n none
        (W5 m ρ c (Proc.devRef .tc main_v2)) (W5 m ρ c (Proc.devRef .tc main_v35)) :=
  (W6_out m ρ c).trans (RefForm.prod_eq_dot _ _)
/-- The second layer region's. -/
theorem W10_dot : W10 m ρ c (Proc.devRef .tc main_v59)
    = Host.dotGeneral (F := Ideal) (φ₁ := .f32) (φ₂ := .f32) Cert.ReferenceIdeal.dot_S50000x256_S256x256_S50000x256_1_0_0_1_n_n none
        (W9 m ρ c (Proc.devRef .tc main_v54)) (W9 m ρ c (Proc.devRef .tc main_v56)) :=
  (W10_out m ρ c).trans (RefForm.prod_eq_dot _ _)
/-- The third layer region's. -/
theorem W14_dot : W14 m ρ c (Proc.devRef .tc main_v80)
    = Host.dotGeneral (F := Ideal) (φ₁ := .f32) (φ₂ := .f32) Cert.ReferenceIdeal.dot_S50000x256_S256x256_S50000x256_1_0_0_1_n_n none
        (W13 m ρ c (Proc.devRef .tc main_v75)) (W13 m ρ c (Proc.devRef .tc main_v77)) :=
  (W14_out m ρ c).trans (RefForm.prod_eq_dot _ _)

/-- The encoder region's output at its exit, as the reference's encoder of the launch contents. -/
theorem W2_enc : W2 m ρ c (Proc.devRef .tc main_v2)
    = (addf (F := Ideal) (φ := .f32)
      (Host.dotGeneral (F := Ideal) (φ₁ := .f32) (φ₂ := .f32) Cert.ReferenceIdeal.dot_S50000x256_S256x256_S50000x256_1_0_0_1_n_n none
        (maximumf (F := Ideal) (φ := .f32)
          (addf (F := Ideal) (φ := .f32) (Host.dotGeneral (F := Ideal) (φ₁ := .f32) (φ₂ := .f32) Cert.ReferenceIdeal.dot_S50000x64_S64x256_S50000x256_1_0_0_1_n_n none (W0 m ρ c (Proc.devRef .tc main_arg0)) (W0 m ρ c (Proc.devRef .tc main_arg2)))
            (broadcastInDim Cert.ReferenceIdeal.S50000x256 ![0, 1] Cert.ReferenceIdeal.Facts₀.bcast_S1x256_S50000x256_0_1
              (broadcastInDim Cert.ReferenceIdeal.S1x256 ![1] Cert.ReferenceIdeal.Facts₀.bcast_S256_S1x256_1 (W0 m ρ c (Proc.devRef .tc main_arg3)))))
          (broadcastInDim Cert.ReferenceIdeal.S50000x256 ![] Cert.ReferenceIdeal.Facts₀.bcast_S_S50000x256 (constant Cert.ReferenceIdeal.S_ .f32 0x00000000#32)))
        (W0 m ρ c (Proc.devRef .tc main_arg4)))
      (broadcastInDim Cert.ReferenceIdeal.S50000x256 ![0, 1] Cert.ReferenceIdeal.Facts₀.bcast_S1x256_S50000x256_0_1
        (broadcastInDim Cert.ReferenceIdeal.S1x256 ![1] Cert.ReferenceIdeal.Facts₀.bcast_S256_S1x256_1 (W0 m ρ c (Proc.devRef .tc main_arg5))))) := by
  rw [W2_out]
  have e0 : W1 m ρ c (Proc.devRef .tc main_arg0) = W0 m ρ c (Proc.devRef .tc main_arg0) := by walk
  have e2 : W1 m ρ c (Proc.devRef .tc main_arg2) = W0 m ρ c (Proc.devRef .tc main_arg2) := by walk
  have e4 : W1 m ρ c (Proc.devRef .tc main_arg4) = W0 m ρ c (Proc.devRef .tc main_arg4) := by walk
  have ev0 : W1 m ρ c (Proc.devRef .tc main_v0)
      = shapeCast S1x256 (W0 m ρ c (Proc.devRef .tc main_arg3)) Facts₀.shapeCasts_S256_S1x256 := by walk; rfl
  have ev1 : W1 m ρ c (Proc.devRef .tc main_v1)
      = shapeCast S1x256 (W0 m ρ c (Proc.devRef .tc main_arg5)) Facts₀.shapeCasts_S256_S1x256 := by walk; rfl
  rw [e0, e2, e4, ev0, ev1]
  exact RefForm.enc_eq _ _ _ _ _

end Cert.Final

end
-- ==== Proof.Res0.lean ====
/-
  The graph embedding: the two programs' first results are the same function of the arguments.

  Read back through the host operations, with each region's output replaced by the reference's spelling of what the
  region leaves, the kernel program's first result is the reference's own composed term of the launch contents; with
  the arguments agreeing the two terms are one.
-/
import proofs.«140012_j36867999269273_1_alg».proof.Proof.FinalBase

set_option maxRecDepth 16384

noncomputable section

namespace Cert.Final

open Cert.KernelIdeal Cert.KernelIdeal.Gen Cert.KernelIdeal.KWalk
open Idealize.ShloMosaic Idealize.ShloMosaic.TcCoe Idealize.SL.Sem Idealize.ShloMosaic.StableHlo

variable (m : (ℓ : Loc nD τ sig) → Buf (Elt Ideal) ℓ) (ρ : Dev nD → PrngReg)
variable (m' : (ℓ : Loc ReferenceIdeal.nD ReferenceIdeal.τ ReferenceIdeal.sig) → Buf (Elt Ideal) ℓ) (c : Dev nD)

set_option maxHeartbeats 400000000 in
/-- The reference's first result, read off its operations' fold, is the kernel program's, read off its segments' fold. -/
theorem res0 (h0 : launchContents m' c (Proc.devRef .tc ReferenceIdeal.main_arg0) = W0 m ρ c (Proc.devRef .tc main_arg0))
    (h1 : launchContents m' c (Proc.devRef .tc ReferenceIdeal.main_arg1) = W0 m ρ c (Proc.devRef .tc main_arg1))
    (h2 : launchContents m' c (Proc.devRef .tc ReferenceIdeal.main_arg2) = W0 m ρ c (Proc.devRef .tc main_arg2))
    (h3 : launchContents m' c (Proc.devRef .tc ReferenceIdeal.main_arg3) = W0 m ρ c (Proc.devRef .tc main_arg3))
    (h4 : launchContents m' c (Proc.devRef .tc ReferenceIdeal.main_arg4) = W0 m ρ c (Proc.devRef .tc main_arg4))
    (h5 : launchContents m' c (Proc.devRef .tc ReferenceIdeal.main_arg5) = W0 m ρ c (Proc.devRef .tc main_arg5))
    (h6 : launchContents m' c (Proc.devRef .tc ReferenceIdeal.main_arg6) = W0 m ρ c (Proc.devRef .tc main_arg6))
    (h7 : launchContents m' c (Proc.devRef .tc ReferenceIdeal.main_arg7) = W0 m ρ c (Proc.devRef .tc main_arg7))
    (h8 : launchContents m' c (Proc.devRef .tc ReferenceIdeal.main_arg8) = W0 m ρ c (Proc.devRef .tc main_arg8))
    (h9 : launchContents m' c (Proc.devRef .tc ReferenceIdeal.main_arg9) = W0 m ρ c (Proc.devRef .tc main_arg9))
    (h10 : launchContents m' c (Proc.devRef .tc ReferenceIdeal.main_arg10) = W0 m ρ c (Proc.devRef .tc main_arg10))
    (h11 : launchContents m' c (Proc.devRef .tc ReferenceIdeal.main_arg11) = W0 m ρ c (Proc.devRef .tc main_arg11))
    (h12 : launchContents m' c (Proc.devRef .tc ReferenceIdeal.main_arg12) = W0 m ρ c (Proc.devRef .tc main_arg12))
    (h13 : launchContents m' c (Proc.devRef .tc ReferenceIdeal.main_arg13) = W0 m ρ c (Proc.devRef .tc main_arg13))
    (h14 : launchContents m' c (Proc.devRef .tc ReferenceIdeal.main_arg14) = W0 m ρ c (Proc.devRef .tc main_arg14))
    (h15 : launchContents m' c (Proc.devRef .tc ReferenceIdeal.main_arg15) = W0 m ρ c (Proc.devRef .tc main_arg15)) :
    after (ReferenceIdeal.ValueP.ops (F := Ideal)) (launchContents m' c) (Proc.devRef .tc ReferenceIdeal.main_v115)
      = W21 m ρ c (Proc.devRef .tc main_v109) := by
  walk
  rw [W14_dot]
  walk
  rw [W10_dot]
  walk
  rw [W6_dot]
  walk
  rw [W2_enc]
  simp only [h0, h1, h2, h3, h4, h5, h6, h7, h8, h9, h10, h11, h12, h13, h14, h15]
  rfl

end Cert.Final

end
-- ==== Proof.Res1.lean ====
/-
  The edge scores: the two programs' second results are the same function of the arguments.

  Read back through the host operations as for the first result, both second results are built on the decoder's
  embedding row v. The reference broadcasts v to every node, gathers two rows per edge and sums their product; by the
  edge-score lemma that is the kernel program's one logistic of Σ_k v(0,k)², broadcast to every edge. What is left is the
  same composed term of the launch contents on both sides.
-/
import proofs.«140012_j36867999269273_1_alg».proof.Proof.FinalBase

set_option maxRecDepth 16384

noncomputable section

namespace Cert.Final

open Cert.KernelIdeal Cert.KernelIdeal.Gen Cert.KernelIdeal.KWalk
open Idealize.ShloMosaic Idealize.ShloMosaic.TcCoe Idealize.SL.Sem Idealize.ShloMosaic.StableHlo

variable (m : (ℓ : Loc nD τ sig) → Buf (Elt Ideal) ℓ) (ρ : Dev nD → PrngReg)
variable (m' : (ℓ : Loc ReferenceIdeal.nD ReferenceIdeal.τ ReferenceIdeal.sig) → Buf (Elt Ideal) ℓ) (c : Dev nD)

set_option maxHeartbeats 400000000 in
/-- The reference's second result, read off its operations' fold, is the kernel program's, read off its segments' fold. -/
theorem res1 (h0 : launchContents m' c (Proc.devRef .tc ReferenceIdeal.main_arg0) = W0 m ρ c (Proc.devRef .tc main_arg0))
    (h1 : launchContents m' c (Proc.devRef .tc ReferenceIdeal.main_arg1) = W0 m ρ c (Proc.devRef .tc main_arg1))
    (h2 : launchContents m' c (Proc.devRef .tc ReferenceIdeal.main_arg2) = W0 m ρ c (Proc.devRef .tc main_arg2))
    (h3 : launchContents m' c (Proc.devRef .tc ReferenceIdeal.main_arg3) = W0 m ρ c (Proc.devRef .tc main_arg3))
    (h4 : launchContents m' c (Proc.devRef .tc ReferenceIdeal.main_arg4) = W0 m ρ c (Proc.devRef .tc main_arg4))
    (h5 : launchContents m' c (Proc.devRef .tc ReferenceIdeal.main_arg5) = W0 m ρ c (Proc.devRef .tc main_arg5))
    (h6 : launchContents m' c (Proc.devRef .tc ReferenceIdeal.main_arg6) = W0 m ρ c (Proc.devRef .tc main_arg6))
    (h7 : launchContents m' c (Proc.devRef .tc ReferenceIdeal.main_arg7) = W0 m ρ c (Proc.devRef .tc main_arg7))
    (h8 : launchContents m' c (Proc.devRef .tc ReferenceIdeal.main_arg8) = W0 m ρ c (Proc.devRef .tc main_arg8))
    (h9 : launchContents m' c (Proc.devRef .tc ReferenceIdeal.main_arg9) = W0 m ρ c (Proc.devRef .tc main_arg9))
    (h10 : launchContents m' c (Proc.devRef .tc ReferenceIdeal.main_arg10) = W0 m ρ c (Proc.devRef .tc main_arg10))
    (h11 : launchContents m' c (Proc.devRef .tc ReferenceIdeal.main_arg11) = W0 m ρ c (Proc.devRef .tc main_arg11))
    (h12 : launchContents m' c (Proc.devRef .tc ReferenceIdeal.main_arg12) = W0 m ρ c (Proc.devRef .tc main_arg12))
    (h13 : launchContents m' c (Proc.devRef .tc ReferenceIdeal.main_arg13) = W0 m ρ c (Proc.devRef .tc main_arg13))
    (h14 : launchContents m' c (Proc.devRef .tc ReferenceIdeal.main_arg14) = W0 m ρ c (Proc.devRef .tc main_arg14))
    (h15 : launchContents m' c (Proc.devRef .tc ReferenceIdeal.main_arg15) = W0 m ρ c (Proc.devRef .tc main_arg15)) :
    after (ReferenceIdeal.ValueP.ops (F := Ideal)) (launchContents m' c) (Proc.devRef .tc ReferenceIdeal.main_v149)
      = W21 m ρ c (Proc.devRef .tc main_v125) := by
  walk
  rw [W14_dot]
  walk
  rw [W10_dot]
  walk
  rw [W6_dot]
  walk
  rw [W2_enc]
  rw [Decode.edge_scores]
  simp only [h0, h1, h2, h3, h4, h5, h6, h7, h8, h9, h10, h11, h12, h13, h14, h15]
  rfl

end Cert.Final

end
-- ==== Proof.lean ====
/-
  The certificate: a graph network's encoder and three layer products on the matrix unit, against the plain reference.

  The kernel program computes a node encoder and, per layer, the product of the node features with the layer's weight
  matrix in four pipelined regions (row tiles of 5000 nodes), and everything else — the symmetric normalization from the
  degree scatter, the gathers along the edges, the scatter-add into the destinations, the pooling, the two small
  projections and the edge decoder — as host operations, as the reference does. On the extended reals a rounding to a
  narrower float format is the identity and a matrix-unit product into a zero accumulator is the plain sum, so each
  region leaves the reference's `dot_general` (the encoder: both of them with their bias rows and the clamp between),
  and the host operations around the regions are the reference's own. The one place the programs differ in shape is the
  edge decoder: the reference broadcasts one embedding row to every node, gathers the two endpoint rows of every edge
  and sums their product, and the kernel program sums the row's squares once and broadcasts the logistic of that sum —
  the same number for every edge, because a gathered row of a broadcast row is that row wherever the index points.
  No finiteness is used: nothing is distributed, cancelled or moved across a sum.

  The three frames: the two kernel programs' are the generated frame certificates; the reference's is its run with the
  results dropped. The ideal pass rewrote nothing, so `preserves` is `True`.
-/
import proofs.«140012_j36867999269273_1_alg».proof.Defs
import proofs.«140012_j36867999269273_1_alg».proof.Proof.Gen.Kernel
import proofs.«140012_j36867999269273_1_alg».proof.Proof.Gen.Kernel.Skeleton
import proofs.«140012_j36867999269273_1_alg».proof.Proof.Gen.Kernel.Launch
import proofs.«140012_j36867999269273_1_alg».proof.Proof.Gen.Kernel.Points
import proofs.«140012_j36867999269273_1_alg».proof.Proof.Gen.Kernel.Frame
import proofs.«140012_j36867999269273_1_alg».proof.Proof.Gen.KernelIdeal
import proofs.«140012_j36867999269273_1_alg».proof.Proof.Gen.KernelIdeal.Skeleton
import proofs.«140012_j36867999269273_1_alg».proof.Proof.Gen.KernelIdeal.Launch
import proofs.«140012_j36867999269273_1_alg».proof.Proof.Gen.KernelIdeal.Points
import proofs.«140012_j36867999269273_1_alg».proof.Proof.Gen.KernelIdeal.Frame
import proofs.«140012_j36867999269273_1_alg».proof.Proof.Gen.ReferenceIdeal
import proofs.«140012_j36867999269273_1_alg».proof.Proof.Gen.Pre_finite_inputs
import proofs.«140012_j36867999269273_1_alg».proof.Proof.KRun
import proofs.«140012_j36867999269273_1_alg».proof.Proof.RunP
import proofs.«140012_j36867999269273_1_alg».proof.Proof.Res0
import proofs.«140012_j36867999269273_1_alg».proof.Proof.Res1
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2) (Cert.ReferenceIdeal.ValueP.run_after (F := Ideal) m ρ)

theorem preserves : Cert.preserves_Kernel_KernelIdeal := trivial

/-- Both runs end with the two results at the kernel program's fold read at its result buffers: the kernel program's by
    its run, the reference's because its own fold at its result buffers is the same value when the arguments agree. -/
theorem algebraic : Cert.algebraic_KernelIdeal_ReferenceIdeal := by
  intro m ρ m' ρ' _ hagree
  refine ⟨fun c => Cert.KernelIdeal.Gen.W21 m ρ c (Proc.devRef .tc Cert.KernelIdeal.main_v109),
    fun c => Cert.KernelIdeal.Gen.W21 m ρ c (Proc.devRef .tc Cert.KernelIdeal.main_v125),
    Cert.KernelIdeal.KRun.run_vals m ρ, ?_⟩
  refine (θ_run Cert.ReferenceIdeal.defs _ _).mono (fun r h c => ?_) (Cert.ReferenceIdeal.ValueP.run_after (F := Ideal) m' ρ')
  obtain ⟨hb, hargs⟩ := h c
  exact ⟨(hb Cert.ReferenceIdeal.main_v115).trans (Cert.Final.res0 m ρ m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2),
    (hb Cert.ReferenceIdeal.main_v149).trans (Cert.Final.res1 m ρ m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2), hargs⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
